-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg12 : FVec F S40 .f32) (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  let main_v54 : FVec F S40 .f32 := Host.absf main_arg12
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x128 .f32) (main_arg11 : FVec F S128x40 .f32) (main_arg12 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x40 .f32 := Host.absf main_arg11
  let main_cst_18 : FVec F S_ .f32 := constant S_ .f32 0x7F800000#32
  let main_v50 : FVec F S128x40 .f32 := broadcastInDim S128x40 ![] bcast_S_S128x40 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x40 .f32) (main_arg12 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x40 .f32) (main_arg12 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S10000x128 : Shape := ⟨2, ![10000, 128]⟩
abbrev S10000x1 : Shape := ⟨2, ![10000, 1]⟩
abbrev S10000 : Shape := ⟨1, ![10000]⟩
abbrev S1x40 : Shape := ⟨2, ![1, 40]⟩
abbrev S50000x40 : Shape := ⟨2, ![50000, 40]⟩
abbrev S10000x40 : Shape := ⟨2, ![10000, 40]⟩

abbrev nBuf : Space → Nat
  | .hbm => 76
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x40, .f32⟩
  | .hbm, ⟨12, _⟩ => ⟨S40, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S1x128, .f32⟩
  | .hbm, ⟨74, _⟩ => ⟨S1x40, .f32⟩
  | .hbm, ⟨75, _⟩ => ⟨S50000x40, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x1, .f32⟩
  | .local _ .vmem, ⟨16, _⟩ => ⟨S10000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x1, .f32⟩
  | .local _ .vmem, ⟨27, _⟩ => ⟨S10000x1, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S128x40, .f32⟩
  | .local _ .vmem, ⟨32, _⟩ => ⟨S1x40, .f32⟩
  | .local _ .vmem, ⟨33, _⟩ => ⟨S10000x40, .f32⟩
  | .local _ .vmem, ⟨34, _⟩ => ⟨S10000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem8_1 : DmaSem sig := 34

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x40 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S10000x40 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S10000 : S10000x128.Reduces [1] S10000
  shapeCasts_S10000_S10000x1 : S10000.ShapeCasts S10000x1
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  dot_S10000x128_S128x40_S10000x40_1_0_0_1_n_n_wf : DotDims.WF S10000x128 S128x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S50000x1.size a
  hwx0_2 : ∀ i : grid0.Coords, EltTy.bits .f32 = 32 ∨ (Rect.block (s := S50000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S50000x128.size a
  hwx0_6 : ∀ i : grid0.Coords, EltTy.bits .f32 = 32 ∨ (Rect.block (s := S50000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S50000x128.size a
  hwx1_6 : ∀ i : grid1.Coords, EltTy.bits .f32 = 32 ∨ (Rect.block (s := S50000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .f32 = 32 ∨ (Rect.block (s := S50000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S50000x1.size a
  hwx2_2 : ∀ i : grid2.Coords, EltTy.bits .f32 = 32 ∨ (Rect.block (s := S50000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x40.size a ≤ S128x40.size a
  hwx2_6 : ∀ i : grid2.Coords, EltTy.bits .f32 = 32 ∨ (Rect.block (s := S128x40) S128x40.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x40.size a ≤ S1x40.size a
  hwx2_7 : ∀ i : grid2.Coords, EltTy.bits .f32 = 32 ∨ (Rect.block (s := S1x40) S1x40.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S10000x40.size a ≤ S50000x40.size a
  hwx2_8 : ∀ i : grid2.Coords, EltTy.bits .f32 = 32 ∨ (Rect.block (s := S50000x40) S10000x40.size (cc2_transform_8 i) (hinb2_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S128x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v48) S1x40.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v49) S10000x40.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 164
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x40, .f32⟩
  | 12 => ⟨S40, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S50000x128, .f32⟩
  | 47 => ⟨S50000x128, .f32⟩
  | 48 => ⟨S50000x128, .f32⟩
  | 49 => ⟨S_, .f32⟩
  | 50 => ⟨S50000, .f32⟩
  | 51 => ⟨S50000x1, .f32⟩
  | 52 => ⟨S50000x1, .f32⟩
  | 53 => ⟨S_, .f32⟩
  | 54 => ⟨S50000x1, .f32⟩
  | 55 => ⟨S50000x1, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S50000x128, .f32⟩
  | 91 => ⟨S50000x128, .f32⟩
  | 92 => ⟨S50000x128, .f32⟩
  | 93 => ⟨S_, .f32⟩
  | 94 => ⟨S50000, .f32⟩
  | 95 => ⟨S50000x1, .f32⟩
  | 96 => ⟨S50000x1, .f32⟩
  | 97 => ⟨S_, .f32⟩
  | 98 => ⟨S50000x1, .f32⟩
  | 99 => ⟨S50000x1, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S_, .f32⟩
  | 119 => ⟨S800000, .f32⟩
  | 120 => ⟨S_, .f32⟩
  | 121 => ⟨S50000, .f32⟩
  | 122 => ⟨S800000x1, .i32⟩
  | 123 => ⟨S50000, .f32⟩
  | 124 => ⟨S_, .f32⟩
  | 125 => ⟨S50000, .f32⟩
  | 126 => ⟨S50000, .f32⟩
  | 127 => ⟨S50000x1, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S50000x128, .f32⟩
  | 7 => ⟨S50000x128, .f32⟩
  | 8 => ⟨S50000x128, .f32⟩
  | 9 => ⟨S_, .f32⟩
  | 10 => ⟨S50000, .f32⟩
  | 11 => ⟨S50000x1, .f32⟩
  | 12 => ⟨S50000x1, .f32⟩
  | 13 => ⟨S_, .f32⟩
  | 14 => ⟨S50000x1, .f32⟩
  | 15 => ⟨S50000x1, .f32⟩
  | 16 => ⟨S50000x128, .f32⟩
  | 17 => ⟨S50000x128, .f32⟩
  | 18 => ⟨S50000x40, .f32⟩
  | 19 => ⟨S1x40, .f32⟩
  | 20 => ⟨S50000x40, .f32⟩
  | 21 => ⟨S50000x40, .f32⟩
  | 22 => ⟨S_, .f32⟩
  | 23 => ⟨S50000, .f32⟩
  | 24 => ⟨S_, .f32⟩
  | 25 => ⟨S50000, .f32⟩
  | 26 => ⟨S50000, .f32⟩
  | 27 => ⟨S50000x1, .f32⟩
  | 28 => ⟨S50000x40, .f32⟩
  | 29 => ⟨S50000x40, .f32⟩
  | 30 => ⟨S50000x40, .f32⟩
  | 31 => ⟨S_, .f32⟩
  | 32 => ⟨S50000, .f32⟩
  | 33 => ⟨S50000x1, .f32⟩
  | 34 => ⟨S50000x40, .f32⟩
  | 35 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_v0 : Ref sig .tc := ⟨.hbm, 48, rfl⟩
abbrev main_call0_cst : Ref sig .tc := ⟨.hbm, 49, rfl⟩
abbrev main_call0_v1 : Ref sig .tc := ⟨.hbm, 50, rfl⟩
abbrev main_call0_v2 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_cst : Ref sig .tc := ⟨.hbm, 58, rfl⟩
abbrev main_call1_v0 : Ref sig .tc := ⟨.hbm, 59, rfl⟩
abbrev main_v34 : Ref sig .tc := ⟨.hbm, 60, rfl⟩
abbrev main_c_5 : Ref sig .tc := ⟨.hbm, 61, rfl⟩
abbrev main_v35 : Ref sig .tc := ⟨.hbm, 62, rfl⟩
abbrev main_v36 : Ref sig .tc := ⟨.hbm, 63, rfl⟩
abbrev main_c_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call2_v0 : Ref sig .tc := ⟨.hbm, 92, rfl⟩
abbrev main_call2_cst : Ref sig .tc := ⟨.hbm, 93, rfl⟩
abbrev main_call2_v1 : Ref sig .tc := ⟨.hbm, 94, rfl⟩
abbrev main_call2_v2 : Ref sig .tc := ⟨.hbm, 95, rfl⟩
abbrev main_v60 : Ref sig .tc := ⟨.hbm, 96, rfl⟩
abbrev main_cst_11 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_call3_cst : Ref sig .tc := ⟨.hbm, 102, rfl⟩
abbrev main_call3_v0 : Ref sig .tc := ⟨.hbm, 103, rfl⟩
abbrev main_v65 : Ref sig .tc := ⟨.hbm, 104, rfl⟩
abbrev main_c_12 : Ref sig .tc := ⟨.hbm, 105, rfl⟩
abbrev main_v66 : Ref sig .tc := ⟨.hbm, 106, rfl⟩
abbrev main_v67 : Ref sig .tc := ⟨.hbm, 107, rfl⟩
abbrev main_c_13 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_14 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_15 : Ref sig .tc := ⟨.hbm, 118, rfl⟩
abbrev main_v76 : Ref sig .tc := ⟨.hbm, 119, rfl⟩
abbrev main_cst_16 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_17 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_call4_v0 : Ref sig .tc := ⟨.hbm, 136, rfl⟩
abbrev main_call4_cst : Ref sig .tc := ⟨.hbm, 137, rfl⟩
abbrev main_call4_v1 : Ref sig .tc := ⟨.hbm, 138, rfl⟩
abbrev main_call4_v2 : Ref sig .tc := ⟨.hbm, 139, rfl⟩
abbrev main_v91 : Ref sig .tc := ⟨.hbm, 140, rfl⟩
abbrev main_cst_18 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_19 : Ref sig .tc := ⟨.hbm, 150, rfl⟩
abbrev main_v100 : Ref sig .tc := ⟨.hbm, 151, rfl⟩
abbrev main_cst_20 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_21 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.RefRun.lean ====
/-
  The reference program's run.

  The reference is a straight line of host operations, so every weakly fair execution of it terminates with each
  buffer at the operations' composed value of the launch memory. Its one result is stated here through the stage
  functions that name the operations one at a time and share what several later operations read — the last stage
  function of the thirteen arguments — rather than as one written-out term; the arguments end unchanged.
-/
import proofs.«170828_j31396210934185_2_alg».proof.Proof.Patched.ReferenceIdealRead

noncomputable section

namespace Cert.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 8192 in
set_option maxHeartbeats 0 in
/-- On every device, from any memory with zero counters: every weakly fair execution of the reference terminates with its
    result at the last stage function of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v110) = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v110).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl)⟩)
    (run_seq scopedRefs_eq scopedSems_eq defs main (fun _ => ops) main_eq (fun _ => ops_sub) m ρ)

end Cert.RefRun

end
-- ==== Proof.KerArr0.lean ====
import proofs.«170828_j31396210934185_2_alg».proof.Proof.Patched.KernelIdealFrame
import Idealize.ShloMosaic.Lib.Pipeline.Value
import Idealize.ShloMosaic.Lib.ValueIdx

/-! # Region 0: from blocks to the array

The region's grid has five points; point `t` reads rows `10000 t … 10000 t + 9999` of the row-blocked input arrays and the
other input arrays whole, and writes back rows `10000 t … 10000 t + 9999` of the output array. Given what one point's body
leaves at an entry of its output block, as a function `g` of the block's row data (`hout`), the output array after the
region is that same `g` of the input arrays' rows, entry by entry (`final0`): each input block is read where the output
block's rectangle says, and the five blocks tile the array (row `r` lies in the block of point `r / 10000`). -/

noncomputable section

open Idealize.ShloMosaic Idealize.ShloMosaic.TcCoe Idealize.SL.Sem
open Idealize.ShloMosaic.Pipeline (Dat)

namespace Cert.KerArr0

open Cert.KernelIdeal Cert.KernelIdeal.Gen Cert.KernelIdeal.GenP Idealize.ShloMosaic.ValueIdx

variable (V : (c : Dev nD) → (b : Ref sig .tc) → Buf (Elt Ideal) ((c : Thread nD τ).loc b))

/-- The index maps over the five grid points: the row-blocked windows sit at block `(t, 0)`, the whole ones at
    block `(0, 0)`. -/
theorem index_at : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-! ## Each input block, read in its array -/

/-- Row `p` of window 0's block at point `t` is row `10000 t + p` of its array. -/
theorem blk0_apply (c : Dev nD) (t : Fin cfg0.N) (p : Fin 10000) (k : Fin 128) (r : Fin 50000)
    (hr : r.val = t.val * 10000 + p.val) :
    (iblk0 V c 0 t : Vec Ideal S10000x128 .f32) (ix2 p k)
      = (V c (Pipeline.arrRef spec0 0) : S50000x128.Idx → EReal) (ix2 r k) := by
  obtain ⟨⟨e0, e1⟩, -⟩ := index_at t
  show (V c (Pipeline.arrRef spec0 0) : S50000x128.Idx → EReal) (((cfg0.win 0).blk t).view.emb (ix2 p k)) = _
  refine congrArg (V c (Pipeline.arrRef spec0 0) : S50000x128.Idx → EReal) ?_
  funext a
  apply Fin.ext
  match a with
  | ⟨0, _⟩ => show win0_0.index t (0 : Fin 2) * 10000 + 1 * p.val = r.val; omega
  | ⟨1, _⟩ => show win0_0.index t (1 : Fin 2) * 128 + 1 * k.val = k.val; omega

/-- Row `p` of window 1's block at point `t` is row `10000 t + p` of its array. -/
theorem blk1_apply (c : Dev nD) (t : Fin cfg0.N) (p : Fin 10000) (k : Fin 128) (r : Fin 50000)
    (hr : r.val = t.val * 10000 + p.val) :
    (iblk0 V c 1 t : Vec Ideal S10000x128 .f32) (ix2 p k)
      = (V c (Pipeline.arrRef spec0 1) : S50000x128.Idx → EReal) (ix2 r k) := by
  obtain ⟨-, ⟨e0, e1⟩, -⟩ := index_at t
  show (V c (Pipeline.arrRef spec0 1) : S50000x128.Idx → EReal) (((cfg0.win 1).blk t).view.emb (ix2 p k)) = _
  refine congrArg (V c (Pipeline.arrRef spec0 1) : S50000x128.Idx → EReal) ?_
  funext a
  apply Fin.ext
  match a with
  | ⟨0, _⟩ => show win0_1.index t (0 : Fin 2) * 10000 + 1 * p.val = r.val; omega
  | ⟨1, _⟩ => show win0_1.index t (1 : Fin 2) * 128 + 1 * k.val = k.val; omega

/-- Entry `p` of window 2's block at point `t` is entry `10000 t + p` of its column. -/
theorem blk2_apply (c : Dev nD) (t : Fin cfg0.N) (p : Fin 10000) (r : Fin 50000)
    (hr : r.val = t.val * 10000 + p.val) :
    (iblk0 V c 2 t : Vec Ideal S10000x1 .f32) (ix2 p (0 : Fin 1))
      = (V c (Pipeline.arrRef spec0 2) : S50000x1.Idx → EReal) (ix2 r (0 : Fin 1)) := by
  obtain ⟨-, -, ⟨e0, e1⟩, -⟩ := index_at t
  show (V c (Pipeline.arrRef spec0 2) : S50000x1.Idx → EReal) (((cfg0.win 2).blk t).view.emb (ix2 p (0 : Fin 1))) = _
  refine congrArg (V c (Pipeline.arrRef spec0 2) : S50000x1.Idx → EReal) ?_
  funext a
  apply Fin.ext
  match a with
  | ⟨0, _⟩ => show win0_2.index t (0 : Fin 2) * 10000 + 1 * p.val = r.val; omega
  | ⟨1, _⟩ => show win0_2.index t (1 : Fin 2) * 1 + 1 * 0 = 0; omega

/-- Window 3's block is its whole array at every point. -/
theorem blk3_eq (c : Dev nD) (t : Fin cfg0.N) :
    (iblk0 V c 3 t : Vec Ideal S128x128 .f32) = (V c (Pipeline.arrRef spec0 3) : S128x128.Idx → EReal) := by
  obtain ⟨-, -, -, ⟨e0, e1⟩, -⟩ := index_at t
  funext j
  show (V c (Pipeline.arrRef spec0 3) : S128x128.Idx → EReal) (((cfg0.win 3).blk t).view.emb j) = _
  refine congrArg (V c (Pipeline.arrRef spec0 3) : S128x128.Idx → EReal) ?_
  funext a
  apply Fin.ext
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- Window 4's block is its whole array at every point. -/
theorem blk4_eq (c : Dev nD) (t : Fin cfg0.N) :
    (iblk0 V c 4 t : Vec Ideal S128x128 .f32) = (V c (Pipeline.arrRef spec0 4) : S128x128.Idx → EReal) := by
  obtain ⟨-, -, -, -, ⟨e0, e1⟩, -⟩ := index_at t
  funext j
  show (V c (Pipeline.arrRef spec0 4) : S128x128.Idx → EReal) (((cfg0.win 4).blk t).view.emb j) = _
  refine congrArg (V c (Pipeline.arrRef spec0 4) : S128x128.Idx → EReal) ?_
  funext a
  apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega

/-- Window 5's block is its whole row at every point. -/
theorem blk5_eq (c : Dev nD) (t : Fin cfg0.N) :
    (iblk0 V c 5 t : Vec Ideal S1x128 .f32) = (V c (Pipeline.arrRef spec0 5) : S1x128.Idx → EReal) := by
  obtain ⟨-, -, -, -, -, ⟨e0, e1⟩, -⟩ := index_at t
  funext j
  show (V c (Pipeline.arrRef spec0 5) : S1x128.Idx → EReal) (((cfg0.win 5).blk t).view.emb j) = _
  refine congrArg (V c (Pipeline.arrRef spec0 5) : S1x128.Idx → EReal) ?_
  funext a
  apply Fin.ext
  match a with
  | ⟨0, _⟩ => show win0_5.index t (0 : Fin 2) * 1 + 1 * (j 0).val = (j 0).val; omega
  | ⟨1, _⟩ => show win0_5.index t (1 : Fin 2) * 128 + 1 * (j 1).val = (j 1).val; omega

/-! ## The output array as one function of the input arrays -/

/-- What the output array holds at row `r`, column `q`, when a grid point's body leaves `g` of the block's row data:
    `g` of row `r` of the two row-blocked arrays, entry `r` of the column, and the three whole arrays. -/
noncomputable def arr (c : Dev nD)
    (g : (Fin 128 → EReal) → (Fin 128 → EReal) → EReal → Vec Ideal S128x128 .f32 → Vec Ideal S128x128 .f32
      → Vec Ideal S1x128 .f32 → Fin 128 → EReal) : S50000x128.Idx → EReal :=
  fun i => g (fun k => (V c (Pipeline.arrRef spec0 0) : S50000x128.Idx → EReal) (ix2 (i 0) k))
    (fun k => (V c (Pipeline.arrRef spec0 1) : S50000x128.Idx → EReal) (ix2 (i 0) k))
    ((V c (Pipeline.arrRef spec0 2) : S50000x1.Idx → EReal) (ix2 (i 0) (0 : Fin 1)))
    (V c (Pipeline.arrRef spec0 3)) (V c (Pipeline.arrRef spec0 4)) (V c (Pipeline.arrRef spec0 5)) (i 1)

/-- What point `t`'s body leaves at row `p`, column `q` of the output block is `arr` at row `10000 t + p`. -/
theorem point_eq (c : Dev nD)
    (g : (Fin 128 → EReal) → (Fin 128 → EReal) → EReal → Vec Ideal S128x128 .f32 → Vec Ideal S128x128 .f32
      → Vec Ideal S1x128 .f32 → Fin 128 → EReal)
    (hout : ∀ (x0 x1 : Vec Ideal S10000x128 .f32) (x2 : Vec Ideal S10000x1 .f32) (x3 x4 : Vec Ideal S128x128 .f32)
      (x5 : Vec Ideal S1x128 .f32) (p : Fin 10000) (q : Fin 128),
      out0_6 (F := Ideal) x0 x1 x2 x3 x4 x5 (ix2 p q)
        = g (fun k => x0 (ix2 p k)) (fun k => x1 (ix2 p k)) (x2 (ix2 p (0 : Fin 1))) x3 x4 x5 q)
    (t : Fin cfg0.N) (p : Fin 10000) (q : Fin 128) :
    out0_6 (F := Ideal) (iblk0 V c 0 t) (iblk0 V c 1 t) (iblk0 V c 2 t) (iblk0 V c 3 t) (iblk0 V c 4 t) (iblk0 V c 5 t) (ix2 p q)
      = arr V c g (((cfg0.win 6).blk t).view.emb (ix2 p q)) := by
  obtain ⟨-, -, -, -, -, -, ⟨e0, e1⟩⟩ := index_at t
  have hN : cfg0.N = 5 := N_0
  have ht : t.val < 5 := by have := t.isLt; omega
  refine (hout (iblk0 V c 0 t) (iblk0 V c 1 t) (iblk0 V c 2 t) (iblk0 V c 3 t) (iblk0 V c 4 t) (iblk0 V c 5 t) p q).trans ?_
  have hrow : (((cfg0.win 6).blk t).view.emb (ix2 p q) (0 : Fin 2)).val = t.val * 10000 + p.val := by
    show win0_6.index t (0 : Fin 2) * 10000 + 1 * p.val = _; omega
  have hcol : ((cfg0.win 6).blk t).view.emb (ix2 p q) (1 : Fin 2) = q := by
    apply Fin.ext; show win0_6.index t (1 : Fin 2) * 128 + 1 * q.val = _; omega
  unfold arr
  rw [blk3_eq, blk4_eq, blk5_eq, hcol]
  congr 1
  · funext k; exact blk0_apply V c t p k _ hrow
  · funext k; exact blk1_apply V c t p k _ hrow
  · exact blk2_apply V c t p _ hrow

/-- What point `t` writes back is block `t` of `arr`. -/
theorem flushed_eq (c : Dev nD)
    (g : (Fin 128 → EReal) → (Fin 128 → EReal) → EReal → Vec Ideal S128x128 .f32 → Vec Ideal S128x128 .f32
      → Vec Ideal S1x128 .f32 → Fin 128 → EReal)
    (hout : ∀ (x0 x1 : Vec Ideal S10000x128 .f32) (x2 : Vec Ideal S10000x1 .f32) (x3 x4 : Vec Ideal S128x128 .f32)
      (x5 : Vec Ideal S1x128 .f32) (p : Fin 10000) (q : Fin 128),
      out0_6 (F := Ideal) x0 x1 x2 x3 x4 x5 (ix2 p q)
        = g (fun k => x0 (ix2 p k)) (fun k => x1 (ix2 p k)) (x2 (ix2 p (0 : Fin 1))) x3 x4 x5 q)
    (t : Fin cfg0.N) :
    (dat0 (F := Ideal) V c).flushed 6 t = ((cfg0.win 6).blk t).view.read (Elt Ideal) (arr V c g) := by
  show (cfg0.win 6).cut (grid0.coords t) ((dat0 (F := Ideal) V c).after 6 t) = _
  rw [after0_6]
  funext j
  obtain ⟨p, q, rfl⟩ : ∃ (p : Fin 10000) (q : Fin 128), j = ix2 p q := ⟨j 0, j 1, eq_ix2 j⟩
  exact point_eq V c g hout t p q

/-! ## The blocks cover the array -/

/-- An index of the array is in point `t`'s block iff each coordinate is in the block's range on its axis. -/
theorem mem_blk (t : Fin cfg0.N) (i : S50000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v24).slice (win0_6.rect t)).set ↔ _
  rw [View.set_slice_whole, Rect.mem_set_unit]
  exact Iff.rfl

/-- Row `r` is in the block of point `r / 10000`. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 5 := N_0
  have hlt : (i 0).val / 10000 < cfg0.N := by rw [hN]; omega
  obtain ⟨-, -, -, -, -, -, ⟨e0, e1⟩⟩ := index_at ⟨(i 0).val / 10000, hlt⟩
  have e0' : win0_6.index ⟨(i 0).val / 10000, hlt⟩ (0 : Fin 2) = (i 0).val / 10000 := e0
  refine ⟨⟨(i 0).val / 10000, hlt⟩, flush0_6 _, ?_⟩
  rw [mem_blk]
  intro a
  match a with
  | ⟨0, _⟩ =>
    show win0_6.index ⟨(i 0).val / 10000, hlt⟩ (0 : Fin 2) * 10000 ≤ (i 0).val
      ∧ (i 0).val < win0_6.index ⟨(i 0).val / 10000, hlt⟩ (0 : Fin 2) * 10000 + 10000
    omega
  | ⟨1, _⟩ =>
    show win0_6.index ⟨(i 0).val / 10000, hlt⟩ (1 : Fin 2) * 128 ≤ (i 1).val
      ∧ (i 1).val < win0_6.index ⟨(i 0).val / 10000, hlt⟩ (1 : Fin 2) * 128 + 128
    omega

/-! ## The array after the region -/

/-- THE OUTPUT ARRAY after the region's five points, entry by entry: `g` of row `r` of the input arrays. -/
theorem final0 (c : Dev nD)
    (g : (Fin 128 → EReal) → (Fin 128 → EReal) → EReal → Vec Ideal S128x128 .f32 → Vec Ideal S128x128 .f32
      → Vec Ideal S1x128 .f32 → Fin 128 → EReal)
    (hout : ∀ (x0 x1 : Vec Ideal S10000x128 .f32) (x2 : Vec Ideal S10000x1 .f32) (x3 x4 : Vec Ideal S128x128 .f32)
      (x5 : Vec Ideal S1x128 .f32) (p : Fin 10000) (q : Fin 128),
      out0_6 (F := Ideal) x0 x1 x2 x3 x4 x5 (ix2 p q)
        = g (fun k => x0 (ix2 p k)) (fun k => x1 (ix2 p k)) (x2 (ix2 p (0 : Fin 1))) x3 x4 x5 q)
    (r : Fin 50000) (q : Fin 128) :
    (dat0 (F := Ideal) V c).arrAt 6 cfg0.N (ix2 r q)
      = g (fun k => (V c (Pipeline.arrRef spec0 0) : S50000x128.Idx → EReal) (ix2 r k))
          (fun k => (V c (Pipeline.arrRef spec0 1) : S50000x128.Idx → EReal) (ix2 r k))
          ((V c (Pipeline.arrRef spec0 2) : S50000x1.Idx → EReal) (ix2 r (0 : Fin 1)))
          (V c (Pipeline.arrRef spec0 3)) (V c (Pipeline.arrRef spec0 4)) (V c (Pipeline.arrRef spec0 5)) q :=
  congrFun ((dat0 (F := Ideal) V c).arrAt_eq_of_cover 6 (arr V c g) (fun t _ => flushed_eq V c g hout t) cover) (ix2 r q)

end Cert.KerArr0

end
-- ==== Proof.KerArr1.lean ====
import proofs.«170828_j31396210934185_2_alg».proof.Proof.Patched.KernelIdealFrame
import Idealize.ShloMosaic.Lib.Pipeline.Value
import Idealize.ShloMosaic.Lib.ValueIdx

/-! # Region 1: from blocks to the array

The region's grid has five points; point `t` reads rows `10000 t … 10000 t + 9999` of the row-blocked input arrays and the
other input arrays whole, and writes back rows `10000 t … 10000 t + 9999` of the output array. Given what one point's body
leaves at an entry of its output block, as a function `g` of the block's row data (`hout`), the output array after the
region is that same `g` of the input arrays' rows, entry by entry (`final1`): each input block is read where the output
block's rectangle says, and the five blocks tile the array (row `r` lies in the block of point `r / 10000`). -/

noncomputable section

open Idealize.ShloMosaic Idealize.ShloMosaic.TcCoe Idealize.SL.Sem
open Idealize.ShloMosaic.Pipeline (Dat)

namespace Cert.KerArr1

open Cert.KernelIdeal Cert.KernelIdeal.Gen Cert.KernelIdeal.GenP Idealize.ShloMosaic.ValueIdx

variable (V : (c : Dev nD) → (b : Ref sig .tc) → Buf (Elt Ideal) ((c : Thread nD τ).loc b))

/-- The index maps over the five grid points: the row-blocked windows sit at block `(t, 0)`, the whole ones at
    block `(0, 0)`. -/
theorem index_at : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-! ## Each input block, read in its array -/

/-- Row `p` of window 0's block at point `t` is row `10000 t + p` of its array. -/
theorem blk0_apply (c : Dev nD) (t : Fin cfg1.N) (p : Fin 10000) (k : Fin 128) (r : Fin 50000)
    (hr : r.val = t.val * 10000 + p.val) :
    (iblk1 V c 0 t : Vec Ideal S10000x128 .f32) (ix2 p k)
      = (V c (Pipeline.arrRef spec1 0) : S50000x128.Idx → EReal) (ix2 r k) := by
  obtain ⟨⟨e0, e1⟩, -⟩ := index_at t
  show (V c (Pipeline.arrRef spec1 0) : S50000x128.Idx → EReal) (((cfg1.win 0).blk t).view.emb (ix2 p k)) = _
  refine congrArg (V c (Pipeline.arrRef spec1 0) : S50000x128.Idx → EReal) ?_
  funext a
  apply Fin.ext
  match a with
  | ⟨0, _⟩ => show win1_0.index t (0 : Fin 2) * 10000 + 1 * p.val = r.val; omega
  | ⟨1, _⟩ => show win1_0.index t (1 : Fin 2) * 128 + 1 * k.val = k.val; omega

/-- Row `p` of window 1's block at point `t` is row `10000 t + p` of its array. -/
theorem blk1_apply (c : Dev nD) (t : Fin cfg1.N) (p : Fin 10000) (k : Fin 128) (r : Fin 50000)
    (hr : r.val = t.val * 10000 + p.val) :
    (iblk1 V c 1 t : Vec Ideal S10000x128 .f32) (ix2 p k)
      = (V c (Pipeline.arrRef spec1 1) : S50000x128.Idx → EReal) (ix2 r k) := by
  obtain ⟨-, ⟨e0, e1⟩, -⟩ := index_at t
  show (V c (Pipeline.arrRef spec1 1) : S50000x128.Idx → EReal) (((cfg1.win 1).blk t).view.emb (ix2 p k)) = _
  refine congrArg (V c (Pipeline.arrRef spec1 1) : S50000x128.Idx → EReal) ?_
  funext a
  apply Fin.ext
  match a with
  | ⟨0, _⟩ => show win1_1.index t (0 : Fin 2) * 10000 + 1 * p.val = r.val; omega
  | ⟨1, _⟩ => show win1_1.index t (1 : Fin 2) * 128 + 1 * k.val = k.val; omega

/-- Entry `p` of window 2's block at point `t` is entry `10000 t + p` of its column. -/
theorem blk2_apply (c : Dev nD) (t : Fin cfg1.N) (p : Fin 10000) (r : Fin 50000)
    (hr : r.val = t.val * 10000 + p.val) :
    (iblk1 V c 2 t : Vec Ideal S10000x1 .f32) (ix2 p (0 : Fin 1))
      = (V c (Pipeline.arrRef spec1 2) : S50000x1.Idx → EReal) (ix2 r (0 : Fin 1)) := by
  obtain ⟨-, -, ⟨e0, e1⟩, -⟩ := index_at t
  show (V c (Pipeline.arrRef spec1 2) : S50000x1.Idx → EReal) (((cfg1.win 2).blk t).view.emb (ix2 p (0 : Fin 1))) = _
  refine congrArg (V c (Pipeline.arrRef spec1 2) : S50000x1.Idx → EReal) ?_
  funext a
  apply Fin.ext
  match a with
  | ⟨0, _⟩ => show win1_2.index t (0 : Fin 2) * 10000 + 1 * p.val = r.val; omega
  | ⟨1, _⟩ => show win1_2.index t (1 : Fin 2) * 1 + 1 * 0 = 0; omega

/-- Window 3's block is its whole array at every point. -/
theorem blk3_eq (c : Dev nD) (t : Fin cfg1.N) :
    (iblk1 V c 3 t : Vec Ideal S128x128 .f32) = (V c (Pipeline.arrRef spec1 3) : S128x128.Idx → EReal) := by
  obtain ⟨-, -, -, ⟨e0, e1⟩, -⟩ := index_at t
  funext j
  show (V c (Pipeline.arrRef spec1 3) : S128x128.Idx → EReal) (((cfg1.win 3).blk t).view.emb j) = _
  refine congrArg (V c (Pipeline.arrRef spec1 3) : S128x128.Idx → EReal) ?_
  funext a
  apply Fin.ext
  match a with
  | ⟨0, _⟩ => show win1_3.index t (0 : Fin 2) * 128 + 1 * (j 0).val = (j 0).val; omega
  | ⟨1, _⟩ => show win1_3.index t (1 : Fin 2) * 128 + 1 * (j 1).val = (j 1).val; omega

/-- Window 4's block is its whole array at every point. -/
theorem blk4_eq (c : Dev nD) (t : Fin cfg1.N) :
    (iblk1 V c 4 t : Vec Ideal S128x128 .f32) = (V c (Pipeline.arrRef spec1 4) : S128x128.Idx → EReal) := by
  obtain ⟨-, -, -, -, ⟨e0, e1⟩, -⟩ := index_at t
  funext j
  show (V c (Pipeline.arrRef spec1 4) : S128x128.Idx → EReal) (((cfg1.win 4).blk t).view.emb j) = _
  refine congrArg (V c (Pipeline.arrRef spec1 4) : S128x128.Idx → EReal) ?_
  funext a
  apply Fin.ext
  match a with
  | ⟨0, _⟩ => show win1_4.index t (0 : Fin 2) * 128 + 1 * (j 0).val = (j 0).val; omega
  | ⟨1, _⟩ => show win1_4.index t (1 : Fin 2) * 128 + 1 * (j 1).val = (j 1).val; omega

/-- Window 5's block is its whole row at every point. -/
theorem blk5_eq (c : Dev nD) (t : Fin cfg1.N) :
    (iblk1 V c 5 t : Vec Ideal S1x128 .f32) = (V c (Pipeline.arrRef spec1 5) : S1x128.Idx → EReal) := by
  obtain ⟨-, -, -, -, -, ⟨e0, e1⟩, -⟩ := index_at t
  funext j
  show (V c (Pipeline.arrRef spec1 5) : S1x128.Idx → EReal) (((cfg1.win 5).blk t).view.emb j) = _
  refine congrArg (V c (Pipeline.arrRef spec1 5) : S1x128.Idx → EReal) ?_
  funext a
  apply Fin.ext
  match a with
  | ⟨0, _⟩ => show win1_5.index t (0 : Fin 2) * 1 + 1 * (j 0).val = (j 0).val; omega
  | ⟨1, _⟩ => show win1_5.index t (1 : Fin 2) * 128 + 1 * (j 1).val = (j 1).val; omega

/-! ## The output array as one function of the input arrays -/

/-- What the output array holds at row `r`, column `q`, when a grid point's body leaves `g` of the block's row data:
    `g` of row `r` of the two row-blocked arrays, entry `r` of the column, and the three whole arrays. -/
noncomputable def arr (c : Dev nD)
    (g : (Fin 128 → EReal) → (Fin 128 → EReal) → EReal → Vec Ideal S128x128 .f32 → Vec Ideal S128x128 .f32
      → Vec Ideal S1x128 .f32 → Fin 128 → EReal) : S50000x128.Idx → EReal :=
  fun i => g (fun k => (V c (Pipeline.arrRef spec1 0) : S50000x128.Idx → EReal) (ix2 (i 0) k))
    (fun k => (V c (Pipeline.arrRef spec1 1) : S50000x128.Idx → EReal) (ix2 (i 0) k))
    ((V c (Pipeline.arrRef spec1 2) : S50000x1.Idx → EReal) (ix2 (i 0) (0 : Fin 1)))
    (V c (Pipeline.arrRef spec1 3)) (V c (Pipeline.arrRef spec1 4)) (V c (Pipeline.arrRef spec1 5)) (i 1)

/-- What point `t`'s body leaves at row `p`, column `q` of the output block is `arr` at row `10000 t + p`. -/
theorem point_eq (c : Dev nD)
    (g : (Fin 128 → EReal) → (Fin 128 → EReal) → EReal → Vec Ideal S128x128 .f32 → Vec Ideal S128x128 .f32
      → Vec Ideal S1x128 .f32 → Fin 128 → EReal)
    (hout : ∀ (x0 x1 : Vec Ideal S10000x128 .f32) (x2 : Vec Ideal S10000x1 .f32) (x3 x4 : Vec Ideal S128x128 .f32)
      (x5 : Vec Ideal S1x128 .f32) (p : Fin 10000) (q : Fin 128),
      out1_6 (F := Ideal) x0 x1 x2 x3 x4 x5 (ix2 p q)
        = g (fun k => x0 (ix2 p k)) (fun k => x1 (ix2 p k)) (x2 (ix2 p (0 : Fin 1))) x3 x4 x5 q)
    (t : Fin cfg1.N) (p : Fin 10000) (q : Fin 128) :
    out1_6 (F := Ideal) (iblk1 V c 0 t) (iblk1 V c 1 t) (iblk1 V c 2 t) (iblk1 V c 3 t) (iblk1 V c 4 t) (iblk1 V c 5 t) (ix2 p q)
      = arr V c g (((cfg1.win 6).blk t).view.emb (ix2 p q)) := by
  obtain ⟨-, -, -, -, -, -, ⟨e0, e1⟩⟩ := index_at t
  have hN : cfg1.N = 5 := N_1
  have ht : t.val < 5 := by have := t.isLt; omega
  refine (hout (iblk1 V c 0 t) (iblk1 V c 1 t) (iblk1 V c 2 t) (iblk1 V c 3 t) (iblk1 V c 4 t) (iblk1 V c 5 t) p q).trans ?_
  have hrow : (((cfg1.win 6).blk t).view.emb (ix2 p q) (0 : Fin 2)).val = t.val * 10000 + p.val := by
    show win1_6.index t (0 : Fin 2) * 10000 + 1 * p.val = _; omega
  have hcol : ((cfg1.win 6).blk t).view.emb (ix2 p q) (1 : Fin 2) = q := by
    apply Fin.ext; show win1_6.index t (1 : Fin 2) * 128 + 1 * q.val = _; omega
  unfold arr
  rw [blk3_eq, blk4_eq, blk5_eq, hcol]
  congr 1
  · funext k; exact blk0_apply V c t p k _ hrow
  · funext k; exact blk1_apply V c t p k _ hrow
  · exact blk2_apply V c t p _ hrow

/-- What point `t` writes back is block `t` of `arr`. -/
theorem flushed_eq (c : Dev nD)
    (g : (Fin 128 → EReal) → (Fin 128 → EReal) → EReal → Vec Ideal S128x128 .f32 → Vec Ideal S128x128 .f32
      → Vec Ideal S1x128 .f32 → Fin 128 → EReal)
    (hout : ∀ (x0 x1 : Vec Ideal S10000x128 .f32) (x2 : Vec Ideal S10000x1 .f32) (x3 x4 : Vec Ideal S128x128 .f32)
      (x5 : Vec Ideal S1x128 .f32) (p : Fin 10000) (q : Fin 128),
      out1_6 (F := Ideal) x0 x1 x2 x3 x4 x5 (ix2 p q)
        = g (fun k => x0 (ix2 p k)) (fun k => x1 (ix2 p k)) (x2 (ix2 p (0 : Fin 1))) x3 x4 x5 q)
    (t : Fin cfg1.N) :
    (dat1 (F := Ideal) V c).flushed 6 t = ((cfg1.win 6).blk t).view.read (Elt Ideal) (arr V c g) := by
  show (cfg1.win 6).cut (grid1.coords t) ((dat1 (F := Ideal) V c).after 6 t) = _
  rw [after1_6]
  funext j
  obtain ⟨p, q, rfl⟩ : ∃ (p : Fin 10000) (q : Fin 128), j = ix2 p q := ⟨j 0, j 1, eq_ix2 j⟩
  exact point_eq V c g hout t p q

/-! ## The blocks cover the array -/

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v36).slice (win1_6.rect t)).set ↔ _
  rw [View.set_slice_whole, Rect.mem_set_unit]
  exact Iff.rfl

/-- Row `r` is in the block of point `r / 10000`. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 5 := N_1
  have hlt : (i 0).val / 10000 < cfg1.N := by rw [hN]; omega
  obtain ⟨-, -, -, -, -, -, ⟨e0, e1⟩⟩ := index_at ⟨(i 0).val / 10000, hlt⟩
  have e0' : win1_6.index ⟨(i 0).val / 10000, hlt⟩ (0 : Fin 2) = (i 0).val / 10000 := e0
  refine ⟨⟨(i 0).val / 10000, hlt⟩, flush1_6 _, ?_⟩
  rw [mem_blk]
  intro a
  match a with
  | ⟨0, _⟩ =>
    show win1_6.index ⟨(i 0).val / 10000, hlt⟩ (0 : Fin 2) * 10000 ≤ (i 0).val
      ∧ (i 0).val < win1_6.index ⟨(i 0).val / 10000, hlt⟩ (0 : Fin 2) * 10000 + 10000
    omega
  | ⟨1, _⟩ =>
    show win1_6.index ⟨(i 0).val / 10000, hlt⟩ (1 : Fin 2) * 128 ≤ (i 1).val
      ∧ (i 1).val < win1_6.index ⟨(i 0).val / 10000, hlt⟩ (1 : Fin 2) * 128 + 128
    omega

/-! ## The array after the region -/

/-- THE OUTPUT ARRAY after the region's five points, entry by entry: `g` of row `r` of the input arrays. -/
theorem final1 (c : Dev nD)
    (g : (Fin 128 → EReal) → (Fin 128 → EReal) → EReal → Vec Ideal S128x128 .f32 → Vec Ideal S128x128 .f32
      → Vec Ideal S1x128 .f32 → Fin 128 → EReal)
    (hout : ∀ (x0 x1 : Vec Ideal S10000x128 .f32) (x2 : Vec Ideal S10000x1 .f32) (x3 x4 : Vec Ideal S128x128 .f32)
      (x5 : Vec Ideal S1x128 .f32) (p : Fin 10000) (q : Fin 128),
      out1_6 (F := Ideal) x0 x1 x2 x3 x4 x5 (ix2 p q)
        = g (fun k => x0 (ix2 p k)) (fun k => x1 (ix2 p k)) (x2 (ix2 p (0 : Fin 1))) x3 x4 x5 q)
    (r : Fin 50000) (q : Fin 128) :
    (dat1 (F := Ideal) V c).arrAt 6 cfg1.N (ix2 r q)
      = g (fun k => (V c (Pipeline.arrRef spec1 0) : S50000x128.Idx → EReal) (ix2 r k))
          (fun k => (V c (Pipeline.arrRef spec1 1) : S50000x128.Idx → EReal) (ix2 r k))
          ((V c (Pipeline.arrRef spec1 2) : S50000x1.Idx → EReal) (ix2 r (0 : Fin 1)))
          (V c (Pipeline.arrRef spec1 3)) (V c (Pipeline.arrRef spec1 4)) (V c (Pipeline.arrRef spec1 5)) q :=
  congrFun ((dat1 (F := Ideal) V c).arrAt_eq_of_cover 6 (arr V c g) (fun t _ => flushed_eq V c g hout t) cover) (ix2 r q)

end Cert.KerArr1

end
-- ==== Proof.KerArr2.lean ====
import proofs.«170828_j31396210934185_2_alg».proof.Proof.Patched.KernelIdealFrame
import Idealize.ShloMosaic.Lib.Pipeline.Value
import Idealize.ShloMosaic.Lib.ValueIdx

/-! # Region 2: from blocks to the array

The region's grid has five points; point `t` reads rows `10000 t … 10000 t + 9999` of the row-blocked input arrays and the
other input arrays whole, and writes back rows `10000 t … 10000 t + 9999` of the output array. Given what one point's body
leaves at an entry of its output block, as a function `g` of the block's row data (`hout`), the output array after the
region is that same `g` of the input arrays' rows, entry by entry (`final2`): each input block is read where the output
block's rectangle says, and the five blocks tile the array (row `r` lies in the block of point `r / 10000`). -/

noncomputable section

open Idealize.ShloMosaic Idealize.ShloMosaic.TcCoe Idealize.SL.Sem
open Idealize.ShloMosaic.Pipeline (Dat)

namespace Cert.KerArr2

open Cert.KernelIdeal Cert.KernelIdeal.Gen Cert.KernelIdeal.GenP Idealize.ShloMosaic.ValueIdx

variable (V : (c : Dev nD) → (b : Ref sig .tc) → Buf (Elt Ideal) ((c : Thread nD τ).loc b))

/-- The index maps over the five grid points: the row-blocked windows sit at block `(t, 0)`, the whole ones at
    block `(0, 0)`. -/
theorem index_at : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = t.val ∧ win2_8.index t (1 : Fin 2) = 0) :=
  (by decide +kernel : ∀ t : Fin grid2.N, _)

/-! ## Each input block, read in its array -/

/-- Row `p` of window 0's block at point `t` is row `10000 t + p` of its array. -/
theorem blk0_apply (c : Dev nD) (t : Fin cfg2.N) (p : Fin 10000) (k : Fin 128) (r : Fin 50000)
    (hr : r.val = t.val * 10000 + p.val) :
    (iblk2 V c 0 t : Vec Ideal S10000x128 .f32) (ix2 p k)
      = (V c (Pipeline.arrRef spec2 0) : S50000x128.Idx → EReal) (ix2 r k) := by
  obtain ⟨⟨e0, e1⟩, -⟩ := index_at t
  show (V c (Pipeline.arrRef spec2 0) : S50000x128.Idx → EReal) (((cfg2.win 0).blk t).view.emb (ix2 p k)) = _
  refine congrArg (V c (Pipeline.arrRef spec2 0) : S50000x128.Idx → EReal) ?_
  funext a
  apply Fin.ext
  match a with
  | ⟨0, _⟩ => show win2_0.index t (0 : Fin 2) * 10000 + 1 * p.val = r.val; omega
  | ⟨1, _⟩ => show win2_0.index t (1 : Fin 2) * 128 + 1 * k.val = k.val; omega

/-- Row `p` of window 1's block at point `t` is row `10000 t + p` of its array. -/
theorem blk1_apply (c : Dev nD) (t : Fin cfg2.N) (p : Fin 10000) (k : Fin 128) (r : Fin 50000)
    (hr : r.val = t.val * 10000 + p.val) :
    (iblk2 V c 1 t : Vec Ideal S10000x128 .f32) (ix2 p k)
      = (V c (Pipeline.arrRef spec2 1) : S50000x128.Idx → EReal) (ix2 r k) := by
  obtain ⟨-, ⟨e0, e1⟩, -⟩ := index_at t
  show (V c (Pipeline.arrRef spec2 1) : S50000x128.Idx → EReal) (((cfg2.win 1).blk t).view.emb (ix2 p k)) = _
  refine congrArg (V c (Pipeline.arrRef spec2 1) : S50000x128.Idx → EReal) ?_
  funext a
  apply Fin.ext
  match a with
  | ⟨0, _⟩ => show win2_1.index t (0 : Fin 2) * 10000 + 1 * p.val = r.val; omega
  | ⟨1, _⟩ => show win2_1.index t (1 : Fin 2) * 128 + 1 * k.val = k.val; omega

/-- Entry `p` of window 2's block at point `t` is entry `10000 t + p` of its column. -/
theorem blk2_apply (c : Dev nD) (t : Fin cfg2.N) (p : Fin 10000) (r : Fin 50000)
    (hr : r.val = t.val * 10000 + p.val) :
    (iblk2 V c 2 t : Vec Ideal S10000x1 .f32) (ix2 p (0 : Fin 1))
      = (V c (Pipeline.arrRef spec2 2) : S50000x1.Idx → EReal) (ix2 r (0 : Fin 1)) := by
  obtain ⟨-, -, ⟨e0, e1⟩, -⟩ := index_at t
  show (V c (Pipeline.arrRef spec2 2) : S50000x1.Idx → EReal) (((cfg2.win 2).blk t).view.emb (ix2 p (0 : Fin 1))) = _
  refine congrArg (V c (Pipeline.arrRef spec2 2) : S50000x1.Idx → EReal) ?_
  funext a
  apply Fin.ext
  match a with
  | ⟨0, _⟩ => show win2_2.index t (0 : Fin 2) * 10000 + 1 * p.val = r.val; omega
  | ⟨1, _⟩ => show win2_2.index t (1 : Fin 2) * 1 + 1 * 0 = 0; omega

/-- Window 3's block is its whole array at every point. -/
theorem blk3_eq (c : Dev nD) (t : Fin cfg2.N) :
    (iblk2 V c 3 t : Vec Ideal S128x128 .f32) = (V c (Pipeline.arrRef spec2 3) : S128x128.Idx → EReal) := by
  obtain ⟨-, -, -, ⟨e0, e1⟩, -⟩ := index_at t
  funext j
  show (V c (Pipeline.arrRef spec2 3) : S128x128.Idx → EReal) (((cfg2.win 3).blk t).view.emb j) = _
  refine congrArg (V c (Pipeline.arrRef spec2 3) : S128x128.Idx → EReal) ?_
  funext a
  apply Fin.ext
  match a with
  | ⟨0, _⟩ => show win2_3.index t (0 : Fin 2) * 128 + 1 * (j 0).val = (j 0).val; omega
  | ⟨1, _⟩ => show win2_3.index t (1 : Fin 2) * 128 + 1 * (j 1).val = (j 1).val; omega

/-- Window 4's block is its whole array at every point. -/
theorem blk4_eq (c : Dev nD) (t : Fin cfg2.N) :
    (iblk2 V c 4 t : Vec Ideal S128x128 .f32) = (V c (Pipeline.arrRef spec2 4) : S128x128.Idx → EReal) := by
  obtain ⟨-, -, -, -, ⟨e0, e1⟩, -⟩ := index_at t
  funext j
  show (V c (Pipeline.arrRef spec2 4) : S128x128.Idx → EReal) (((cfg2.win 4).blk t).view.emb j) = _
  refine congrArg (V c (Pipeline.arrRef spec2 4) : S128x128.Idx → EReal) ?_
  funext a
  apply Fin.ext
  match a with
  | ⟨0, _⟩ => show win2_4.index t (0 : Fin 2) * 128 + 1 * (j 0).val = (j 0).val; omega
  | ⟨1, _⟩ => show win2_4.index t (1 : Fin 2) * 128 + 1 * (j 1).val = (j 1).val; omega

/-- Window 5's block is its whole row at every point. -/
theorem blk5_eq (c : Dev nD) (t : Fin cfg2.N) :
    (iblk2 V c 5 t : Vec Ideal S1x128 .f32) = (V c (Pipeline.arrRef spec2 5) : S1x128.Idx → EReal) := by
  obtain ⟨-, -, -, -, -, ⟨e0, e1⟩, -⟩ := index_at t
  funext j
  show (V c (Pipeline.arrRef spec2 5) : S1x128.Idx → EReal) (((cfg2.win 5).blk t).view.emb j) = _
  refine congrArg (V c (Pipeline.arrRef spec2 5) : S1x128.Idx → EReal) ?_
  funext a
  apply Fin.ext
  match a with
  | ⟨0, _⟩ => show win2_5.index t (0 : Fin 2) * 1 + 1 * (j 0).val = (j 0).val; omega
  | ⟨1, _⟩ => show win2_5.index t (1 : Fin 2) * 128 + 1 * (j 1).val = (j 1).val; omega

/-- Window 6's block is its whole array at every point. -/
theorem blk6_eq (c : Dev nD) (t : Fin cfg2.N) :
    (iblk2 V c 6 t : Vec Ideal S128x40 .f32) = (V c (Pipeline.arrRef spec2 6) : S128x40.Idx → EReal) := by
  obtain ⟨-, -, -, -, -, -, ⟨e0, e1⟩, -⟩ := index_at t
  funext j
  show (V c (Pipeline.arrRef spec2 6) : S128x40.Idx → EReal) (((cfg2.win 6).blk t).view.emb j) = _
  refine congrArg (V c (Pipeline.arrRef spec2 6) : S128x40.Idx → EReal) ?_
  funext a
  apply Fin.ext
  match a with
  | ⟨0, _⟩ => show win2_6.index t (0 : Fin 2) * 128 + 1 * (j 0).val = (j 0).val; omega
  | ⟨1, _⟩ => show win2_6.index t (1 : Fin 2) * 40 + 1 * (j 1).val = (j 1).val; omega

/-- Window 7's block is its whole row at every point. -/
theorem blk7_eq (c : Dev nD) (t : Fin cfg2.N) :
    (iblk2 V c 7 t : Vec Ideal S1x40 .f32) = (V c (Pipeline.arrRef spec2 7) : S1x40.Idx → EReal) := by
  obtain ⟨-, -, -, -, -, -, -, ⟨e0, e1⟩, -⟩ := index_at t
  funext j
  show (V c (Pipeline.arrRef spec2 7) : S1x40.Idx → EReal) (((cfg2.win 7).blk t).view.emb j) = _
  refine congrArg (V c (Pipeline.arrRef spec2 7) : S1x40.Idx → EReal) ?_
  funext a
  apply Fin.ext
  match a with
  | ⟨0, _⟩ => show win2_7.index t (0 : Fin 2) * 1 + 1 * (j 0).val = (j 0).val; omega
  | ⟨1, _⟩ => show win2_7.index t (1 : Fin 2) * 40 + 1 * (j 1).val = (j 1).val; omega

/-! ## The output array as one function of the input arrays -/

/-- What the output array holds at row `r`, column `q`, when a grid point's body leaves `g` of the block's row data:
    `g` of row `r` of the two row-blocked arrays, entry `r` of the column, and the five whole arrays. -/
noncomputable def arr (c : Dev nD)
    (g : (Fin 128 → EReal) → (Fin 128 → EReal) → EReal → Vec Ideal S128x128 .f32 → Vec Ideal S128x128 .f32
      → Vec Ideal S1x128 .f32 → Vec Ideal S128x40 .f32 → Vec Ideal S1x40 .f32 → Fin 40 → EReal) : S50000x40.Idx → EReal :=
  fun i => g (fun k => (V c (Pipeline.arrRef spec2 0) : S50000x128.Idx → EReal) (ix2 (i 0) k))
    (fun k => (V c (Pipeline.arrRef spec2 1) : S50000x128.Idx → EReal) (ix2 (i 0) k))
    ((V c (Pipeline.arrRef spec2 2) : S50000x1.Idx → EReal) (ix2 (i 0) (0 : Fin 1)))
    (V c (Pipeline.arrRef spec2 3)) (V c (Pipeline.arrRef spec2 4)) (V c (Pipeline.arrRef spec2 5))
    (V c (Pipeline.arrRef spec2 6)) (V c (Pipeline.arrRef spec2 7)) (i 1)

/-- What point `t`'s body leaves at row `p`, column `q` of the output block is `arr` at row `10000 t + p`. -/
theorem point_eq (c : Dev nD)
    (g : (Fin 128 → EReal) → (Fin 128 → EReal) → EReal → Vec Ideal S128x128 .f32 → Vec Ideal S128x128 .f32
      → Vec Ideal S1x128 .f32 → Vec Ideal S128x40 .f32 → Vec Ideal S1x40 .f32 → Fin 40 → EReal)
    (hout : ∀ (x0 x1 : Vec Ideal S10000x128 .f32) (x2 : Vec Ideal S10000x1 .f32) (x3 x4 : Vec Ideal S128x128 .f32)
      (x5 : Vec Ideal S1x128 .f32) (x6 : Vec Ideal S128x40 .f32) (x7 : Vec Ideal S1x40 .f32) (p : Fin 10000) (q : Fin 40),
      out2_8 (F := Ideal) x0 x1 x2 x3 x4 x5 x6 x7 (ix2 p q)
        = g (fun k => x0 (ix2 p k)) (fun k => x1 (ix2 p k)) (x2 (ix2 p (0 : Fin 1))) x3 x4 x5 x6 x7 q)
    (t : Fin cfg2.N) (p : Fin 10000) (q : Fin 40) :
    out2_8 (F := Ideal) (iblk2 V c 0 t) (iblk2 V c 1 t) (iblk2 V c 2 t) (iblk2 V c 3 t) (iblk2 V c 4 t) (iblk2 V c 5 t) (iblk2 V c 6 t) (iblk2 V c 7 t) (ix2 p q)
      = arr V c g (((cfg2.win 8).blk t).view.emb (ix2 p q)) := by
  obtain ⟨-, -, -, -, -, -, -, -, ⟨e0, e1⟩⟩ := index_at t
  have hN : cfg2.N = 5 := N_2
  have ht : t.val < 5 := by have := t.isLt; omega
  refine (hout (iblk2 V c 0 t) (iblk2 V c 1 t) (iblk2 V c 2 t) (iblk2 V c 3 t) (iblk2 V c 4 t) (iblk2 V c 5 t) (iblk2 V c 6 t) (iblk2 V c 7 t) p q).trans ?_
  have hrow : (((cfg2.win 8).blk t).view.emb (ix2 p q) (0 : Fin 2)).val = t.val * 10000 + p.val := by
    show win2_8.index t (0 : Fin 2) * 10000 + 1 * p.val = _; omega
  have hcol : ((cfg2.win 8).blk t).view.emb (ix2 p q) (1 : Fin 2) = q := by
    apply Fin.ext; show win2_8.index t (1 : Fin 2) * 40 + 1 * q.val = _; omega
  unfold arr
  rw [blk3_eq, blk4_eq, blk5_eq, blk6_eq, blk7_eq, hcol]
  congr 1
  · funext k; exact blk0_apply V c t p k _ hrow
  · funext k; exact blk1_apply V c t p k _ hrow
  · exact blk2_apply V c t p _ hrow

/-- What point `t` writes back is block `t` of `arr`. -/
theorem flushed_eq (c : Dev nD)
    (g : (Fin 128 → EReal) → (Fin 128 → EReal) → EReal → Vec Ideal S128x128 .f32 → Vec Ideal S128x128 .f32
      → Vec Ideal S1x128 .f32 → Vec Ideal S128x40 .f32 → Vec Ideal S1x40 .f32 → Fin 40 → EReal)
    (hout : ∀ (x0 x1 : Vec Ideal S10000x128 .f32) (x2 : Vec Ideal S10000x1 .f32) (x3 x4 : Vec Ideal S128x128 .f32)
      (x5 : Vec Ideal S1x128 .f32) (x6 : Vec Ideal S128x40 .f32) (x7 : Vec Ideal S1x40 .f32) (p : Fin 10000) (q : Fin 40),
      out2_8 (F := Ideal) x0 x1 x2 x3 x4 x5 x6 x7 (ix2 p q)
        = g (fun k => x0 (ix2 p k)) (fun k => x1 (ix2 p k)) (x2 (ix2 p (0 : Fin 1))) x3 x4 x5 x6 x7 q)
    (t : Fin cfg2.N) :
    (dat2 (F := Ideal) V c).flushed 8 t = ((cfg2.win 8).blk t).view.read (Elt Ideal) (arr V c g) := by
  show (cfg2.win 8).cut (grid2.coords t) ((dat2 (F := Ideal) V c).after 8 t) = _
  rw [after2_8]
  funext j
  obtain ⟨p, q, rfl⟩ : ∃ (p : Fin 10000) (q : Fin 40), j = ix2 p q := ⟨j 0, j 1, eq_ix2 j⟩
  exact point_eq V c g hout t p q

/-! ## The blocks cover the array -/

/-- An index of the array is in point `t`'s block iff each coordinate is in the block's range on its axis. -/
theorem mem_blk (t : Fin cfg2.N) (i : S50000x40.Idx) :
    i ∈ ((cfg2.win 8).blk t).view.set ↔ ∀ a : Fin 2, win2_8.index t a * S10000x40.size a ≤ (i a).val ∧ (i a).val < win2_8.index t a * S10000x40.size a + S10000x40.size a := by
  show i ∈ ((View.whole main_v49).slice (win2_8.rect t)).set ↔ _
  rw [View.set_slice_whole, Rect.mem_set_unit]
  exact Iff.rfl

/-- Row `r` is in the block of point `r / 10000`. -/
theorem cover (i : S50000x40.Idx) :
    ∃ t : Fin cfg2.N, (cfg2.win 8).flush t = true ∧ i ∈ ((cfg2.win 8).blk t).view.set := by
  have hi0 : (i 0).val < 50000 := (i 0).isLt
  have hi1 : (i 1).val < 40 := (i 1).isLt
  have hN : cfg2.N = 5 := N_2
  have hlt : (i 0).val / 10000 < cfg2.N := by rw [hN]; omega
  obtain ⟨-, -, -, -, -, -, -, -, ⟨e0, e1⟩⟩ := index_at ⟨(i 0).val / 10000, hlt⟩
  have e0' : win2_8.index ⟨(i 0).val / 10000, hlt⟩ (0 : Fin 2) = (i 0).val / 10000 := e0
  refine ⟨⟨(i 0).val / 10000, hlt⟩, flush2_8 _, ?_⟩
  rw [mem_blk]
  intro a
  match a with
  | ⟨0, _⟩ =>
    show win2_8.index ⟨(i 0).val / 10000, hlt⟩ (0 : Fin 2) * 10000 ≤ (i 0).val
      ∧ (i 0).val < win2_8.index ⟨(i 0).val / 10000, hlt⟩ (0 : Fin 2) * 10000 + 10000
    omega
  | ⟨1, _⟩ =>
    show win2_8.index ⟨(i 0).val / 10000, hlt⟩ (1 : Fin 2) * 40 ≤ (i 1).val
      ∧ (i 1).val < win2_8.index ⟨(i 0).val / 10000, hlt⟩ (1 : Fin 2) * 40 + 40
    omega

/-! ## The array after the region -/

/-- THE OUTPUT ARRAY after the region's five points, entry by entry: `g` of row `r` of the input arrays. -/
theorem final2 (c : Dev nD)
    (g : (Fin 128 → EReal) → (Fin 128 → EReal) → EReal → Vec Ideal S128x128 .f32 → Vec Ideal S128x128 .f32
      → Vec Ideal S1x128 .f32 → Vec Ideal S128x40 .f32 → Vec Ideal S1x40 .f32 → Fin 40 → EReal)
    (hout : ∀ (x0 x1 : Vec Ideal S10000x128 .f32) (x2 : Vec Ideal S10000x1 .f32) (x3 x4 : Vec Ideal S128x128 .f32)
      (x5 : Vec Ideal S1x128 .f32) (x6 : Vec Ideal S128x40 .f32) (x7 : Vec Ideal S1x40 .f32) (p : Fin 10000) (q : Fin 40),
      out2_8 (F := Ideal) x0 x1 x2 x3 x4 x5 x6 x7 (ix2 p q)
        = g (fun k => x0 (ix2 p k)) (fun k => x1 (ix2 p k)) (x2 (ix2 p (0 : Fin 1))) x3 x4 x5 x6 x7 q)
    (r : Fin 50000) (q : Fin 40) :
    (dat2 (F := Ideal) V c).arrAt 8 cfg2.N (ix2 r q)
      = g (fun k => (V c (Pipeline.arrRef spec2 0) : S50000x128.Idx → EReal) (ix2 r k))
          (fun k => (V c (Pipeline.arrRef spec2 1) : S50000x128.Idx → EReal) (ix2 r k))
          ((V c (Pipeline.arrRef spec2 2) : S50000x1.Idx → EReal) (ix2 r (0 : Fin 1)))
          (V c (Pipeline.arrRef spec2 3)) (V c (Pipeline.arrRef spec2 4)) (V c (Pipeline.arrRef spec2 5))
          (V c (Pipeline.arrRef spec2 6)) (V c (Pipeline.arrRef spec2 7)) q :=
  congrFun ((dat2 (F := Ideal) V c).arrAt_eq_of_cover 8 (arr V c g) (fun t _ => flushed_eq V c g hout t) cover) (ix2 r q)

end Cert.KerArr2

end
-- ==== Proof.Spec.lean ====
/-
  The mathematics both programs compute, one node (one row) at a time, on the extended reals.

  A layer takes, for a node, its own feature row `xr`, the mean `a` of its in-neighbours' rows, two weight
  matrices and a bias, and forms the affine row  a·Wl + b + xr·Wr  (`lin`); the row is then divided by its
  Euclidean norm clamped below by ε (`unit`), and, for the first two layers, clamped below by zero (`unitPos`).
  The last layer's row goes through one more affine map (`logits`) and a softmax taken relative to the row's
  maximum (`softmax`).

  The two programs differ in how the mean is taken: one divides the neighbour sum by the clamped in-degree
  `c = max cnt 1`, the other multiplies it by the reciprocal `1 / c`. On the extended reals `s / c = s · c⁻¹`
  whenever `c ≠ 0` and `1 / c = c⁻¹` likewise, so the two agree for every `s`, finite or not, as soon as
  `c ≠ 0` — and `c ≥ 1` by its own definition (`mul_recip`, `clamp_ne_zero`).
-/
import Idealize.ShloMosaic.PureOps.Ideal
import Idealize.ShloMosaic.PureOps.Ideal.Laws
import Idealize.ShloMosaic.Lib.ValueIdx

noncomputable section

namespace Cert.SageSpec

open Idealize.ShloMosaic

/-- The four words the programs share, as the extended reals they denote: 0, 1, ε = f32(1e-12), −∞. -/
abbrev w0 : EReal := Ideal.ofBits .f32 0x00000000#32
abbrev w1 : EReal := Ideal.ofBits .f32 0x3F800000#32
abbrev wEps : EReal := Ideal.ofBits .f32 0x2B8CBCCC#32
abbrev wNegInf : EReal := Ideal.ofBits .f32 0xFF800000#32

/-- The affine row of a layer: (mean row)·Wl + bias + (own row)·Wr, entry `j`. -/
def lin (a xr : Fin 128 → EReal) (Wl Wr : Fin 128 → Fin 128 → EReal) (b : Fin 128 → EReal) (j : Fin 128) : EReal :=
  (∑ k : Fin 128, a k * Wl k j) + b j + ∑ k : Fin 128, xr k * Wr k j

/-- A row's Euclidean norm, clamped below by ε. -/
def nrm (o : Fin 128 → EReal) : EReal := max (Ideal.sqrt (∑ j : Fin 128, o j * o j)) wEps

/-- The row divided by its clamped norm. -/
def unit (o : Fin 128 → EReal) (j : Fin 128) : EReal := Ideal.div (o j) (nrm o)

/-- … and clamped below by zero (layers one and two). -/
def unitPos (o : Fin 128 → EReal) (j : Fin 128) : EReal := max (unit o j) w0

/-- The final affine map of a 128-row into 40 classes. -/
def logits (h : Fin 128 → EReal) (Wfc : Fin 128 → Fin 40 → EReal) (bfc : Fin 40 → EReal) (j : Fin 40) : EReal :=
  (∑ k : Fin 128, h k * Wfc k j) + bfc j

/-- A row's maximum, folded from −∞. -/
def rowMax (z : Fin 40 → EReal) : EReal := (Finset.univ : Finset (Fin 40)).fold max wNegInf z

/-- Softmax of a row relative to its maximum. -/
def softmax (z : Fin 40 → EReal) (j : Fin 40) : EReal :=
  Ideal.div (Ideal.exp (z j - rowMax z)) (∑ j' : Fin 40, Ideal.exp (z j' - rowMax z))

/-- The word of 1.0 denotes the real 1. -/
theorem w1_eq : w1 = 1 := by
  simp [w1, Ideal.ofBits, Ideal.ieee]
  rw [← EReal.coe_mul]; norm_num

/-- The clamped in-degree is never zero: it is at least one. -/
theorem clamp_ne_zero (cnt : EReal) : max cnt w1 ≠ 0 := by
  have h : (0 : EReal) < max cnt w1 := lt_of_lt_of_le (by rw [w1_eq]; exact zero_lt_one) (le_max_right _ _)
  exact ne_of_gt h

/-- Multiplying by the reciprocal of a nonzero `c` is dividing by `c`, for every extended real `s`. -/
theorem mul_recip (s c : EReal) (hc : c ≠ 0) : s * Ideal.div w1 c = Ideal.div s c := by
  unfold Ideal.div
  rw [if_neg hc, if_neg hc, w1_eq, one_mul]

/-- The mean row taken by the reciprocal is the mean row taken by the quotient. -/
theorem mean_eq (S : Fin 128 → EReal) (cnt : EReal) :
    (fun k => S k * Ideal.div w1 (max cnt w1)) = fun k => Ideal.div (S k) (max cnt w1) :=
  funext fun k => mul_recip (S k) _ (clamp_ne_zero cnt)

/-- The maximum with −∞ on the left is the identity. -/
theorem wNegInf_eq : wNegInf = ⊥ := by
  simp [wNegInf, Ideal.ofBits, Ideal.ieee]

theorem max_negInf_left (x : EReal) : max wNegInf x = x := by
  rw [wNegInf_eq]; exact max_bot_left x

end Cert.SageSpec

end
-- ==== Proof.KerRowsBase.lean ====
/-
  The three regions' bodies share two stages, read here at one entry of the output block.

  The first stage is the affine row of a layer: the mean row times the left weights, plus the bias row,
  plus the node's own row times the right weights (`linVec`). The second divides a row by its Euclidean
  norm clamped below by ε (`unitVec`). At the entry (p, q) of the block they are `lin` and `unit` of the
  specification, taken on row p of the operands.

  Below them are the small readings the stages need: a column written as a vector of rows [a] → [a, 1],
  a column spread along the rows [a, 1] → [a, b], a block product at an entry as the sum over the
  contracted coordinate, and a row's sum and a row's maximum as the sum and the fold over the row.
-/
import proofs.«170828_j31396210934185_2_alg».proof.Proof.Spec
import proofs.«170828_j31396210934185_2_alg».proof.Proof.Gen.KernelIdeal.Skeleton
import Idealize.ShloMosaic.Lib.ValueLayout

noncomputable section

namespace Cert.KerRowsBase

open Idealize.ShloMosaic Idealize.ShloMosaic.ValueIdx Cert.SageSpec Cert.KernelIdeal Cert.KernelIdeal.Gen

/-! ## Columns -/

/-- An `[a]` vector cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## A block product at an entry -/

theorem lhs128_0 (i : S10000x128.Idx) (k : dot_S10000x128_S128x128_S10000x128_1_0_0_1_n_n.contr.Idx) :
    (dot_S10000x128_S128x128_S10000x128_1_0_0_1_n_n.lhsIdx i k 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs128_1 (i : S10000x128.Idx) (k : dot_S10000x128_S128x128_S10000x128_1_0_0_1_n_n.contr.Idx) :
    (dot_S10000x128_S128x128_S10000x128_1_0_0_1_n_n.lhsIdx i k 1).val = (k ⟨0, by decide⟩).val :=
  dot_S10000x128_S128x128_S10000x128_1_0_0_1_n_n.lhsIdx_val_of_single rfl i k
theorem rhs128_0 (i : S10000x128.Idx) (k : dot_S10000x128_S128x128_S10000x128_1_0_0_1_n_n.contr.Idx) :
    (dot_S10000x128_S128x128_S10000x128_1_0_0_1_n_n.rhsIdx i k 0).val = (k ⟨0, by decide⟩).val :=
  dot_S10000x128_S128x128_S10000x128_1_0_0_1_n_n.rhsIdx_val_of_single rfl i k
theorem rhs128_1 (i : S10000x128.Idx) (k : dot_S10000x128_S128x128_S10000x128_1_0_0_1_n_n.contr.Idx) :
    (dot_S10000x128_S128x128_S10000x128_1_0_0_1_n_n.rhsIdx i k 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- A `[10000, 128] × [128, 128]` block product into the zero splat, at `(p, q)`: row `p` against column `q`. -/
theorem matmul128_apply (lhs : FVec Ideal S10000x128 .f32) (rhs : FVec Ideal S128x128 .f32) (p : Fin 10000) (q : Fin 128) :
    matmul dot_S10000x128_S128x128_S10000x128_1_0_0_1_n_n none lhs rhs (constant S10000x128 .f32 0x00000000#32) (ix2 p q)
      = ∑ k : Fin 128, lhs (ix2 p k) * rhs (ix2 k q) := by
  simp only [matmul]
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q)
      ((contrEquiv1 dot_S10000x128_S128x128_S10000x128_1_0_0_1_n_n 128 rfl rfl).symm k) = ix2 p k :=
    funext fun a => Fin.ext (by
      match a with
      | ⟨0, _⟩ => exact lhs128_0 _ _
      | ⟨1, _⟩ => exact (lhs128_1 _ _).trans hk)
  have er : dot_S10000x128_S128x128_S10000x128_1_0_0_1_n_n.rhsIdx (ix2 p q)
      ((contrEquiv1 dot_S10000x128_S128x128_S10000x128_1_0_0_1_n_n 128 rfl rfl).symm k) = ix2 k q :=
    funext fun a => Fin.ext (by
      match a with
      | ⟨0, _⟩ => exact (rhs128_0 _ _).trans hk
      | ⟨1, _⟩ => exact rhs128_1 _ _)
  rw [el, er]

theorem lhs40_0 (i : S10000x40.Idx) (k : dot_S10000x128_S128x40_S10000x40_1_0_0_1_n_n.contr.Idx) :
    (dot_S10000x128_S128x40_S10000x40_1_0_0_1_n_n.lhsIdx i k 0).val = (i 0).val := by
  unfold DotDims.lhsIdx
  rw [dif_neg (show ¬(0 : Fin S10000x128.rank) ∈ dot_S10000x128_S128x40_S10000x40_1_0_0_1_n_n.lhsBatch by decide),
    dif_pos (show (0 : Fin S10000x128.rank) ∈ dot_S10000x128_S128x40_S10000x40_1_0_0_1_n_n.lhsNonContracting by decide)]
  rfl
theorem lhs40_1 (i : S10000x40.Idx) (k : dot_S10000x128_S128x40_S10000x40_1_0_0_1_n_n.contr.Idx) :
    (dot_S10000x128_S128x40_S10000x40_1_0_0_1_n_n.lhsIdx i k 1).val = (k ⟨0, by decide⟩).val :=
  dot_S10000x128_S128x40_S10000x40_1_0_0_1_n_n.lhsIdx_val_of_single rfl i k
theorem rhs40_0 (i : S10000x40.Idx) (k : dot_S10000x128_S128x40_S10000x40_1_0_0_1_n_n.contr.Idx) :
    (dot_S10000x128_S128x40_S10000x40_1_0_0_1_n_n.rhsIdx i k 0).val = (k ⟨0, by decide⟩).val :=
  dot_S10000x128_S128x40_S10000x40_1_0_0_1_n_n.rhsIdx_val_of_single rfl i k
theorem rhs40_1 (i : S10000x40.Idx) (k : dot_S10000x128_S128x40_S10000x40_1_0_0_1_n_n.contr.Idx) :
    (dot_S10000x128_S128x40_S10000x40_1_0_0_1_n_n.rhsIdx i k 1).val = (i 1).val := by
  unfold DotDims.rhsIdx
  rw [dif_neg (show ¬(1 : Fin S128x40.rank) ∈ dot_S10000x128_S128x40_S10000x40_1_0_0_1_n_n.rhsBatch by decide),
    dif_pos (show (1 : Fin S128x40.rank) ∈ dot_S10000x128_S128x40_S10000x40_1_0_0_1_n_n.rhsNonContracting by decide)]
  rfl

/-- A `[10000, 128] × [128, 40]` block product into the zero splat, at `(p, q)`. -/
theorem matmul40_apply (lhs : FVec Ideal S10000x128 .f32) (rhs : FVec Ideal S128x40 .f32) (p : Fin 10000) (q : Fin 40) :
    matmul dot_S10000x128_S128x40_S10000x40_1_0_0_1_n_n none lhs rhs (constant S10000x40 .f32 0x00000000#32) (ix2 p q)
      = ∑ k : Fin 128, lhs (ix2 p k) * rhs (ix2 k q) := by
  simp only [matmul]
  rw [Ideal.matmul_constant_zero_apply,
    ← Equiv.sum_comp (contrEquiv1 dot_S10000x128_S128x40_S10000x40_1_0_0_1_n_n 128 rfl rfl).symm]
  refine Finset.sum_congr rfl fun k _ => ?_
  have hk := contrEquiv1_symm_val dot_S10000x128_S128x40_S10000x40_1_0_0_1_n_n 128 rfl rfl k
  have el : dot_S10000x128_S128x40_S10000x40_1_0_0_1_n_n.lhsIdx (ix2 p q)
      ((contrEquiv1 dot_S10000x128_S128x40_S10000x40_1_0_0_1_n_n 128 rfl rfl).symm k) = ix2 p k :=
    funext fun a => Fin.ext (by
      match a with
      | ⟨0, _⟩ => exact lhs40_0 _ _
      | ⟨1, _⟩ => exact (lhs40_1 _ _).trans hk)
  have er : dot_S10000x128_S128x40_S10000x40_1_0_0_1_n_n.rhsIdx (ix2 p q)
      ((contrEquiv1 dot_S10000x128_S128x40_S10000x40_1_0_0_1_n_n 128 rfl rfl).symm k) = ix2 k q :=
    funext fun a => Fin.ext (by
      match a with
      | ⟨0, _⟩ => exact (rhs40_0 _ _).trans hk
      | ⟨1, _⟩ => exact rhs40_1 _ _)
  rw [el, er]

/-! ## A row's sum and a row's maximum -/

/-- The lane sum of a `[10000, 128]` block from the neutral word, at row `p`: the sum over the row. -/
theorem rowSum128_apply (v : FVec Ideal S10000x128 .f32) (p : Fin 10000) :
    multiReduction (F := Ideal) .add [1] S10000 v 0x00000000#32 reduces_S10000x128_S10000 (.inl rfl) rfl (ix1 p)
      = ∑ k : Fin 128, v (ix2 p k) := by
  refine (Ideal.multiReduction_add_single v 0x00000000#32 reduces_S10000x128_S10000 (.inl rfl) rfl (ix1 p)).trans ?_
  refine Finset.sum_congr rfl fun k _ => congrArg v ?_
  funext a
  match a with
  | ⟨0, _⟩ => rfl
  | ⟨1, _⟩ => rfl

/-- The lane sum of a `[10000, 40]` block from the neutral word, at row `p`. -/
theorem rowSum40_apply (v : FVec Ideal S10000x40 .f32) (p : Fin 10000) :
    multiReduction (F := Ideal) .add [1] S10000 v 0x00000000#32 reduces_S10000x40_S10000 (.inl rfl) rfl (ix1 p)
      = ∑ k : Fin 40, v (ix2 p k) := by
  refine (Ideal.multiReduction_add_single v 0x00000000#32 reduces_S10000x40_S10000 (.inl rfl) rfl (ix1 p)).trans ?_
  refine Finset.sum_congr rfl fun k _ => congrArg v ?_
  funext a
  match a with
  | ⟨0, _⟩ => rfl
  | ⟨1, _⟩ => rfl

/-- The lane maximum of a `[10000, 40]` block from −∞, at row `p`: the row's maximum. -/
theorem rowMax40_apply (v : FVec Ideal S10000x40 .f32) (p : Fin 10000) :
    multiReduction (F := Ideal) .maximumf [1] S10000 v 0xFF800000#32 reduces_S10000x40_S10000 (.inl rfl) rfl (ix1 p)
      = rowMax fun j => v (ix2 p j) := by
  refine (Ideal.multiReduction_maximumf_single v 0xFF800000#32 reduces_S10000x40_S10000 (.inl rfl) rfl (ix1 p)).trans ?_
  unfold rowMax
  refine congrArg (fun f => Finset.fold max wNegInf f (Finset.univ : Finset (Fin 40))) ?_
  funext k
  refine congrArg v ?_
  funext a
  match a with
  | ⟨0, _⟩ => rfl
  | ⟨1, _⟩ => rfl

/-! ## The two shared stages -/

/-- The affine stage on whole blocks. -/
def linVec (mean own : FVec Ideal S10000x128 .f32) (Wl Wr : FVec Ideal S128x128 .f32) (b : FVec Ideal S1x128 .f32) :
    FVec Ideal S10000x128 .f32 :=
  addf (addf (matmul dot_S10000x128_S128x128_S10000x128_1_0_0_1_n_n none mean Wl (constant S10000x128 .f32 0x00000000#32))
      (broadcastTo S10000x128 b broadcasts_S1x128_S10000x128))
    (matmul dot_S10000x128_S128x128_S10000x128_1_0_0_1_n_n none own Wr (constant S10000x128 .f32 0x00000000#32))

/-- At `(p, q)` it is `lin` of row `p` of the two operands, at `q`. -/
theorem linVec_apply (mean own : FVec Ideal S10000x128 .f32) (Wl Wr : FVec Ideal S128x128 .f32) (b : FVec Ideal S1x128 .f32)
    (p : Fin 10000) (q : Fin 128) :
    linVec mean own Wl Wr b (ix2 p q)
      = lin (fun k => mean (ix2 p k)) (fun k => own (ix2 p k)) (fun k j => Wl (ix2 k j)) (fun k j => Wr (ix2 k j))
          (fun j => b (ix2 0 j)) q := by
  unfold linVec lin
  rw [addf_apply, addf_apply, matmul128_apply, matmul128_apply, broadcastTo_1b_ab_apply]

/-- The normalizing stage on a whole block: each row over its Euclidean norm clamped below by ε. -/
def unitVec (o : FVec Ideal S10000x128 .f32) : FVec Ideal S10000x128 .f32 :=
  divf o (broadcastTo S10000x128
    (maximumf
      (sqrt (shapeCast S10000x1
        (multiReduction .add [1] S10000 (mulf o o) 0x00000000#32 reduces_S10000x128_S10000 (.inl rfl) rfl)
        shapeCasts_S10000_S10000x1))
      (broadcast S10000x1 (Scalar.ofBits .f32 0x2B8CBCCC#32)))
    broadcasts_S10000x1_S10000x128)

/-- At `(p, q)` it is `unit` of row `p`, at `q`. -/
theorem unitVec_apply (o : FVec Ideal S10000x128 .f32) (p : Fin 10000) (q : Fin 128) :
    unitVec o (ix2 p q) = unit (fun j => o (ix2 p j)) q := by
  unfold unitVec unit nrm
  rw [divf_apply, broadcastTo_a1_ab_apply, maximumf_apply]
  refine congrArg (fun n => Ideal.div (o (ix2 p q)) (max n wEps)) ?_
  show Ideal.sqrt (shapeCast S10000x1
      (multiReduction (F := Ideal) .add [1] S10000 (mulf o o) 0x00000000#32 reduces_S10000x128_S10000 (.inl rfl) rfl)
      shapeCasts_S10000_S10000x1 (ix2 p (0 : Fin 1))) = _
  rw [shapeCast_a_a1_apply, rowSum128_apply]
  rfl

end Cert.KerRowsBase

end
-- ==== Proof.KerRows0.lean ====
/-
  Region 0's body at one entry of the output block: the mean row (the neighbour sums times the reciprocal
  clamped in-degree of the node), the affine stage, the normalizing stage, and the clamp below by zero.
-/
import proofs.«170828_j31396210934185_2_alg».proof.Proof.KerRowsBase

noncomputable section

namespace Cert.KerRows0

open Idealize.ShloMosaic Idealize.ShloMosaic.ValueIdx Cert.SageSpec Cert.KernelIdeal Cert.KernelIdeal.Gen Cert.KerRowsBase

/-- The payload is the two shared stages over the mean block, clamped below by zero (the casts of a block
    to its own shape are still there). -/
theorem pay0_stages (v0 : Vec Ideal S10000x128 .f32) (v2 : Vec Ideal S10000x1 .f32) (v6 : Vec Ideal S10000x128 .f32)
    (v7 v8 : Vec Ideal S128x128 .f32) (v9 : Vec Ideal S1x128 .f32) :
    k0_pay1 (F := Ideal) v0 v2 v6 v7 v8 v9
      = maximumf
          (unitVec (linVec
            (mulf (shapeCast S10000x128 v0 shapeCasts_S10000x128_S10000x128)
              (broadcastTo S10000x128 (shapeCast S10000x1 v2 shapeCasts_S10000x1_S10000x1) broadcasts_S10000x1_S10000x128))
            v6 v7 v8 (shapeCast S1x128 v9 shapeCasts_S1x128_S1x128)))
          (broadcast S10000x128 (Scalar.ofBits .f32 0x00000000#32)) := rfl

/-- The same with the casts of a block to its own shape removed. -/
theorem pay0_eq (v0 : Vec Ideal S10000x128 .f32) (v2 : Vec Ideal S10000x1 .f32) (v6 : Vec Ideal S10000x128 .f32)
    (v7 v8 : Vec Ideal S128x128 .f32) (v9 : Vec Ideal S1x128 .f32) :
    k0_pay1 (F := Ideal) v0 v2 v6 v7 v8 v9
      = maximumf
          (unitVec (linVec (mulf v0 (broadcastTo S10000x128 v2 broadcasts_S10000x1_S10000x128)) v6 v7 v8 v9))
          (broadcast S10000x128 (Scalar.ofBits .f32 0x00000000#32)) := by
  rw [pay0_stages, shapeCast_self, shapeCast_self, shapeCast_self]

/-- Region 0's payload at `(p, q)`. -/
theorem pay0_apply (v0 : Vec Ideal S10000x128 .f32) (v2 : Vec Ideal S10000x1 .f32) (v6 : Vec Ideal S10000x128 .f32)
    (v7 v8 : Vec Ideal S128x128 .f32) (v9 : Vec Ideal S1x128 .f32) (p : Fin 10000) (q : Fin 128) :
    k0_pay1 (F := Ideal) v0 v2 v6 v7 v8 v9 (ix2 p q)
      = unitPos (lin (fun k => v0 (ix2 p k) * v2 (ix2 p 0)) (fun k => v6 (ix2 p k)) (fun k j => v7 (ix2 k j))
          (fun k j => v8 (ix2 k j)) (fun j => v9 (ix2 0 j))) q := by
  rw [pay0_eq]
  unfold unitPos
  rw [maximumf_apply, unitVec_apply, broadcast_apply]
  refine congrArg (fun o => max (unit o q) w0) (funext fun j => ?_)
  rw [linVec_apply]
  refine congrArg (fun a => lin a _ _ _ _ j) (funext fun k => ?_)
  rw [mulf_apply, broadcastTo_a1_ab_apply]

end Cert.KerRows0

end
-- ==== Proof.KerRows1.lean ====
/-
  Region 1's body at one entry of the output block. It is region 0's body (the node's own block passes through one
  more cast to its own shape): the mean row, the affine stage, the normalizing stage, the clamp below by zero.
-/
import proofs.«170828_j31396210934185_2_alg».proof.Proof.KerRowsBase

noncomputable section

namespace Cert.KerRows1

open Idealize.ShloMosaic Idealize.ShloMosaic.ValueIdx Cert.SageSpec Cert.KernelIdeal Cert.KernelIdeal.Gen Cert.KerRowsBase

/-- The payload is the two shared stages over the mean block, clamped below by zero (the casts of a block
    to its own shape are still there). -/
theorem pay1_stages (v0 : Vec Ideal S10000x128 .f32) (v2 : Vec Ideal S10000x1 .f32) (v6 : Vec Ideal S10000x128 .f32)
    (v8 v9 : Vec Ideal S128x128 .f32) (v10 : Vec Ideal S1x128 .f32) :
    k1_pay1 (F := Ideal) v0 v2 v6 v8 v9 v10
      = maximumf
          (unitVec (linVec
            (mulf (shapeCast S10000x128 v0 shapeCasts_S10000x128_S10000x128)
              (broadcastTo S10000x128 (shapeCast S10000x1 v2 shapeCasts_S10000x1_S10000x1) broadcasts_S10000x1_S10000x128))
            (shapeCast S10000x128 v6 shapeCasts_S10000x128_S10000x128) v8 v9 (shapeCast S1x128 v10 shapeCasts_S1x128_S1x128)))
          (broadcast S10000x128 (Scalar.ofBits .f32 0x00000000#32)) := rfl

/-- The same with the casts of a block to its own shape removed. -/
theorem pay1_eq (v0 : Vec Ideal S10000x128 .f32) (v2 : Vec Ideal S10000x1 .f32) (v6 : Vec Ideal S10000x128 .f32)
    (v8 v9 : Vec Ideal S128x128 .f32) (v10 : Vec Ideal S1x128 .f32) :
    k1_pay1 (F := Ideal) v0 v2 v6 v8 v9 v10
      = maximumf
          (unitVec (linVec (mulf v0 (broadcastTo S10000x128 v2 broadcasts_S10000x1_S10000x128)) v6 v8 v9 v10))
          (broadcast S10000x128 (Scalar.ofBits .f32 0x00000000#32)) := by
  rw [pay1_stages, shapeCast_self, shapeCast_self, shapeCast_self, shapeCast_self]

/-- Region 1's payload at `(p, q)`. -/
theorem pay1_apply (v0 : Vec Ideal S10000x128 .f32) (v2 : Vec Ideal S10000x1 .f32) (v6 : Vec Ideal S10000x128 .f32)
    (v8 v9 : Vec Ideal S128x128 .f32) (v10 : Vec Ideal S1x128 .f32) (p : Fin 10000) (q : Fin 128) :
    k1_pay1 (F := Ideal) v0 v2 v6 v8 v9 v10 (ix2 p q)
      = unitPos (lin (fun k => v0 (ix2 p k) * v2 (ix2 p 0)) (fun k => v6 (ix2 p k)) (fun k j => v8 (ix2 k j))
          (fun k j => v9 (ix2 k j)) (fun j => v10 (ix2 0 j))) q := by
  rw [pay1_eq]
  unfold unitPos
  rw [maximumf_apply, unitVec_apply, broadcast_apply]
  refine congrArg (fun o => max (unit o q) w0) (funext fun j => ?_)
  rw [linVec_apply]
  refine congrArg (fun a => lin a _ _ _ _ j) (funext fun k => ?_)
  rw [mulf_apply, broadcastTo_a1_ab_apply]

end Cert.KerRows1

end
-- ==== Proof.KerRows2.lean ====
/-
  Region 2's body at one entry of the output block: the mean row, the affine stage and the normalizing stage as in
  the first two regions (no clamp below by zero), then the final affine map into 40 classes and the softmax taken
  relative to the row's maximum — the exponentials are the first stored value's, the closing quotient by the row's
  sum of them the second's.
-/
import proofs.«170828_j31396210934185_2_alg».proof.Proof.KerRowsBase

noncomputable section

namespace Cert.KerRows2

open Idealize.ShloMosaic Idealize.ShloMosaic.ValueIdx Cert.SageSpec Cert.KernelIdeal Cert.KernelIdeal.Gen Cert.KerRowsBase

/-! ## The last layer's two further stages -/

/-- The final affine map on whole blocks. -/
def logitVec (h : FVec Ideal S10000x128 .f32) (W : FVec Ideal S128x40 .f32) (b : FVec Ideal S1x40 .f32) :
    FVec Ideal S10000x40 .f32 :=
  addf (matmul dot_S10000x128_S128x40_S10000x40_1_0_0_1_n_n none h W (constant S10000x40 .f32 0x00000000#32))
    (broadcastTo S10000x40 b broadcasts_S1x40_S10000x40)

/-- At `(p, q)` it is `logits` of row `p`, at `q`. -/
theorem logitVec_apply (h : FVec Ideal S10000x128 .f32) (W : FVec Ideal S128x40 .f32) (b : FVec Ideal S1x40 .f32)
    (p : Fin 10000) (q : Fin 40) :
    logitVec h W b (ix2 p q) = logits (fun k => h (ix2 p k)) (fun k j => W (ix2 k j)) (fun j => b (ix2 0 j)) q := by
  unfold logitVec logits
  rw [addf_apply, matmul40_apply, broadcastTo_1b_ab_apply]

/-- The exponentials of a block's entries relative to their row's maximum. -/
def expVec (z : FVec Ideal S10000x40 .f32) : FVec Ideal S10000x40 .f32 :=
  exp (subf z (broadcastTo S10000x40
    (shapeCast S10000x1
      (multiReduction .maximumf [1] S10000 z 0xFF800000#32 reduces_S10000x40_S10000 (.inl rfl) rfl)
      shapeCasts_S10000_S10000x1)
    broadcasts_S10000x1_S10000x40))

/-- At `(p, q)`: the exponential of the entry less its row's maximum. -/
theorem expVec_apply (z : FVec Ideal S10000x40 .f32) (p : Fin 10000) (q : Fin 40) :
    expVec z (ix2 p q) = Ideal.exp (z (ix2 p q) - rowMax fun j => z (ix2 p j)) := by
  unfold expVec
  show Ideal.exp (z (ix2 p q) - broadcastTo S10000x40
    (shapeCast S10000x1
      (multiReduction (F := Ideal) .maximumf [1] S10000 z 0xFF800000#32 reduces_S10000x40_S10000 (.inl rfl) rfl)
      shapeCasts_S10000_S10000x1)
    broadcasts_S10000x1_S10000x40 (ix2 p q)) = _
  rw [broadcastTo_a1_ab_apply, shapeCast_a_a1_apply, rowMax40_apply]

/-- The closing quotient at `(p, q)`: the entry over its row's sum. -/
theorem pay1_apply (e : FVec Ideal S10000x40 .f32) (p : Fin 10000) (q : Fin 40) :
    k2_pay1 (F := Ideal) e (ix2 p q) = Ideal.div (e (ix2 p q)) (∑ j : Fin 40, e (ix2 p j)) := by
  unfold k2_pay1
  show Ideal.div (e (ix2 p q)) (broadcastTo S10000x40
    (shapeCast S10000x1
      (multiReduction (F := Ideal) .add [1] S10000 e 0x00000000#32 reduces_S10000x40_S10000 (.inl rfl) rfl)
      shapeCasts_S10000_S10000x1)
    broadcasts_S10000x1_S10000x40 (ix2 p q)) = _
  rw [broadcastTo_a1_ab_apply, shapeCast_a_a1_apply, rowSum40_apply]

/-! ## Region 2's payloads -/

/-- The first payload is the exponentials of the logits of the normalized affine row (the casts of a block
    to its own shape are still there). -/
theorem pay2_stages (v0 : Vec Ideal S10000x128 .f32) (v2 : Vec Ideal S10000x1 .f32) (v6 : Vec Ideal S10000x128 .f32)
    (v8 v9 : Vec Ideal S128x128 .f32) (v10 : Vec Ideal S1x128 .f32) (v25 : Vec Ideal S128x40 .f32) (v26 : Vec Ideal S1x40 .f32) :
    k2_pay2 (F := Ideal) v0 v2 v6 v8 v9 v10 v25 v26
      = expVec (logitVec
          (unitVec (linVec
            (mulf (shapeCast S10000x128 v0 shapeCasts_S10000x128_S10000x128)
              (broadcastTo S10000x128 (shapeCast S10000x1 v2 shapeCasts_S10000x1_S10000x1) broadcasts_S10000x1_S10000x128))
            (shapeCast S10000x128 v6 shapeCasts_S10000x128_S10000x128) v8 v9 (shapeCast S1x128 v10 shapeCasts_S1x128_S1x128)))
          v25 (shapeCast S1x40 v26 shapeCasts_S1x40_S1x40)) := rfl

/-- The same with the casts of a block to its own shape removed. -/
theorem pay2_eq (v0 : Vec Ideal S10000x128 .f32) (v2 : Vec Ideal S10000x1 .f32) (v6 : Vec Ideal S10000x128 .f32)
    (v8 v9 : Vec Ideal S128x128 .f32) (v10 : Vec Ideal S1x128 .f32) (v25 : Vec Ideal S128x40 .f32) (v26 : Vec Ideal S1x40 .f32) :
    k2_pay2 (F := Ideal) v0 v2 v6 v8 v9 v10 v25 v26
      = expVec (logitVec
          (unitVec (linVec (mulf v0 (broadcastTo S10000x128 v2 broadcasts_S10000x1_S10000x128)) v6 v8 v9 v10))
          v25 v26) := by
  rw [pay2_stages, shapeCast_self, shapeCast_self, shapeCast_self, shapeCast_self, shapeCast_self]

/-- The logits block at `(p, j)`. -/
theorem logit_row (v0 : Vec Ideal S10000x128 .f32) (v2 : Vec Ideal S10000x1 .f32) (v6 : Vec Ideal S10000x128 .f32)
    (v8 v9 : Vec Ideal S128x128 .f32) (v10 : Vec Ideal S1x128 .f32) (v25 : Vec Ideal S128x40 .f32) (v26 : Vec Ideal S1x40 .f32)
    (p : Fin 10000) (j : Fin 40) :
    logitVec (unitVec (linVec (mulf v0 (broadcastTo S10000x128 v2 broadcasts_S10000x1_S10000x128)) v6 v8 v9 v10)) v25 v26 (ix2 p j)
      = logits (unit (lin (fun k => v0 (ix2 p k) * v2 (ix2 p 0)) (fun k => v6 (ix2 p k)) (fun k j => v8 (ix2 k j))
          (fun k j => v9 (ix2 k j)) (fun j => v10 (ix2 0 j)))) (fun k j => v25 (ix2 k j)) (fun j => v26 (ix2 0 j)) j := by
  rw [logitVec_apply]
  refine congrArg (fun h => logits h _ _ j) (funext fun k => ?_)
  rw [unitVec_apply]
  refine congrArg (fun o => unit o k) (funext fun i => ?_)
  rw [linVec_apply]
  refine congrArg (fun a => lin a _ _ _ _ i) (funext fun k' => ?_)
  rw [mulf_apply, broadcastTo_a1_ab_apply]

/-- A block whose row `p` is `z`: its exponentials relative to the row's maximum, over their sum, are `softmax z`. -/
theorem softmax_of_row (Z : FVec Ideal S10000x40 .f32) (z : Fin 40 → EReal) (p : Fin 10000) (hz : ∀ j, Z (ix2 p j) = z j)
    (q : Fin 40) :
    Ideal.div (Ideal.exp (Z (ix2 p q) - rowMax fun j => Z (ix2 p j)))
        (∑ j : Fin 40, Ideal.exp (Z (ix2 p j) - rowMax fun j' => Z (ix2 p j')))
      = softmax z q := by
  have h : (fun j => Z (ix2 p j)) = z := funext hz
  subst h
  rfl

/-- Region 2's stored value at `(p, q)`: the softmax of the logits of the normalized affine row. -/
theorem pay_apply (v0 : Vec Ideal S10000x128 .f32) (v2 : Vec Ideal S10000x1 .f32) (v6 : Vec Ideal S10000x128 .f32)
    (v8 v9 : Vec Ideal S128x128 .f32) (v10 : Vec Ideal S1x128 .f32) (v25 : Vec Ideal S128x40 .f32) (v26 : Vec Ideal S1x40 .f32)
    (p : Fin 10000) (q : Fin 40) :
    k2_pay1 (F := Ideal) (k2_pay2 (F := Ideal) v0 v2 v6 v8 v9 v10 v25 v26) (ix2 p q)
      = softmax (logits (unit (lin (fun k => v0 (ix2 p k) * v2 (ix2 p 0)) (fun k => v6 (ix2 p k)) (fun k j => v8 (ix2 k j))
          (fun k j => v9 (ix2 k j)) (fun j => v10 (ix2 0 j)))) (fun k j => v25 (ix2 k j)) (fun j => v26 (ix2 0 j))) q := by
  rw [pay1_apply, pay2_eq]
  simp only [expVec_apply]
  exact softmax_of_row _ _ p (fun j => logit_row v0 v2 v6 v8 v9 v10 v25 v26 p j) q

end Cert.KerRows2

end
-- ==== Proof.KerOut.lean ====
/-
  What each region's body leaves in its output block, at one entry.

  Every load of a body reads a whole input block and its one store writes the whole output block, each through the
  rectangle of the block's own extents at offset zero; so the output block after the body is the body's stored value
  computed from the input blocks themselves, and its entry (p, q) is the row function of the specification on row p.
-/
import proofs.«170828_j31396210934185_2_alg».proof.Proof.Spec
import proofs.«170828_j31396210934185_2_alg».proof.Proof.KerRows0
import proofs.«170828_j31396210934185_2_alg».proof.Proof.KerRows1
import proofs.«170828_j31396210934185_2_alg».proof.Proof.KerRows2
import proofs.«170828_j31396210934185_2_alg».proof.Proof.Patched.KernelIdealFrame

noncomputable section

namespace Cert.KerOut

open Idealize.ShloMosaic Idealize.ShloMosaic.ValueIdx Cert.SageSpec Cert.KernelIdeal Cert.KernelIdeal.Gen

/-- The offsets of a whole-block rectangle, as the constant zero. -/
theorem hz : (![0, 0] : Fin 2 → Nat) = fun _ => 0 := funext fun a => by fin_cases a <;> rfl

/-- Region 0's output buffer after the body is the payload of the input blocks themselves: every load and the one
    store go through whole-block rectangles at offset zero. -/
theorem out0_eq (x0 x1 : Vec Ideal S10000x128 .f32) (x2 : Vec Ideal S10000x1 .f32) (x3 x4 : Vec Ideal S128x128 .f32)
    (x5 : Vec Ideal S1x128 .f32) :
    GenP.out0_6 (F := Ideal) x0 x1 x2 x3 x4 x5 = k0_pay1 (F := Ideal) x1 x2 x0 x3 x4 x5 := by
  unfold GenP.out0_6
  rw [View.canon_unit_zero hz]
  simp only [View.ld_unit_zero (S := S10000x128) hz, View.ld_unit_zero (S := S10000x1) hz,
    View.ld_unit_zero (S := S128x128) hz, View.ld_unit_zero (S := S1x128) hz]

/-- Region 1's likewise. -/
theorem out1_eq (x0 x1 : Vec Ideal S10000x128 .f32) (x2 : Vec Ideal S10000x1 .f32) (x3 x4 : Vec Ideal S128x128 .f32)
    (x5 : Vec Ideal S1x128 .f32) :
    GenP.out1_6 (F := Ideal) x0 x1 x2 x3 x4 x5 = k1_pay1 (F := Ideal) x1 x2 x0 x3 x4 x5 := by
  unfold GenP.out1_6
  rw [View.canon_unit_zero hz]
  simp only [View.ld_unit_zero (S := S10000x128) hz, View.ld_unit_zero (S := S10000x1) hz,
    View.ld_unit_zero (S := S128x128) hz, View.ld_unit_zero (S := S1x128) hz]

/-- Region 2's likewise, through its two payloads. -/
theorem out2_eq (x0 x1 : Vec Ideal S10000x128 .f32) (x2 : Vec Ideal S10000x1 .f32) (x3 x4 : Vec Ideal S128x128 .f32)
    (x5 : Vec Ideal S1x128 .f32) (x6 : Vec Ideal S128x40 .f32) (x7 : Vec Ideal S1x40 .f32) :
    GenP.out2_8 (F := Ideal) x0 x1 x2 x3 x4 x5 x6 x7
      = k2_pay1 (F := Ideal) (k2_pay2 (F := Ideal) x1 x2 x0 x3 x4 x5 x6 x7) := by
  unfold GenP.out2_8
  rw [View.canon_unit_zero hz]
  simp only [View.ld_unit_zero (S := S10000x128) hz, View.ld_unit_zero (S := S10000x1) hz,
    View.ld_unit_zero (S := S128x128) hz, View.ld_unit_zero (S := S1x128) hz,
    View.ld_unit_zero (S := S128x40) hz, View.ld_unit_zero (S := S1x40) hz]

/-- Region 0's output buffer after the body, at `(p, q)`. -/
theorem out0_apply (x0 x1 : Vec Ideal S10000x128 .f32) (x2 : Vec Ideal S10000x1 .f32) (x3 x4 : Vec Ideal S128x128 .f32)
    (x5 : Vec Ideal S1x128 .f32) (p : Fin 10000) (q : Fin 128) :
    GenP.out0_6 (F := Ideal) x0 x1 x2 x3 x4 x5 (ix2 p q)
      = unitPos (lin (fun k => x1 (ix2 p k) * x2 (ix2 p (0 : Fin 1))) (fun k => x0 (ix2 p k)) (fun k j => x3 (ix2 k j))
          (fun k j => x4 (ix2 k j)) (fun j => x5 (ix2 0 j))) q := by
  rw [out0_eq]
  exact KerRows0.pay0_apply x1 x2 x0 x3 x4 x5 p q

/-- Region 1's output buffer after the body, at `(p, q)`. -/
theorem out1_apply (x0 x1 : Vec Ideal S10000x128 .f32) (x2 : Vec Ideal S10000x1 .f32) (x3 x4 : Vec Ideal S128x128 .f32)
    (x5 : Vec Ideal S1x128 .f32) (p : Fin 10000) (q : Fin 128) :
    GenP.out1_6 (F := Ideal) x0 x1 x2 x3 x4 x5 (ix2 p q)
      = unitPos (lin (fun k => x1 (ix2 p k) * x2 (ix2 p (0 : Fin 1))) (fun k => x0 (ix2 p k)) (fun k j => x3 (ix2 k j))
          (fun k j => x4 (ix2 k j)) (fun j => x5 (ix2 0 j))) q := by
  rw [out1_eq]
  exact KerRows1.pay1_apply x1 x2 x0 x3 x4 x5 p q

/-- Region 2's output buffer after the body, at `(p, q)`. -/
theorem out2_apply (x0 x1 : Vec Ideal S10000x128 .f32) (x2 : Vec Ideal S10000x1 .f32) (x3 x4 : Vec Ideal S128x128 .f32)
    (x5 : Vec Ideal S1x128 .f32) (x6 : Vec Ideal S128x40 .f32) (x7 : Vec Ideal S1x40 .f32) (p : Fin 10000) (q : Fin 40) :
    GenP.out2_8 (F := Ideal) x0 x1 x2 x3 x4 x5 x6 x7 (ix2 p q)
      = softmax (logits (unit (lin (fun k => x1 (ix2 p k) * x2 (ix2 p (0 : Fin 1))) (fun k => x0 (ix2 p k))
          (fun k j => x3 (ix2 k j)) (fun k j => x4 (ix2 k j)) (fun j => x5 (ix2 0 j))))
          (fun k j => x6 (ix2 k j)) (fun j => x7 (ix2 0 j))) q := by
  rw [out2_eq]
  exact KerRows2.pay_apply x1 x2 x0 x3 x4 x5 x6 x7 p q

end Cert.KerOut

end
-- ==== Proof.KerEntry.lean ====
/-
  What each kernel region finds in its arrays when it is entered.

  Between the regions the program runs host operations: it cuts the edge list into a source and a destination
  vector, counts each node's in-degree by scattering ones, takes the reciprocal of the degree clamped below by one,
  gathers the rows of the current features at the sources and scatter-adds them at the destinations (the
  neighbour sum), and reshapes a bias vector into a one-row matrix. A region replaces its output array and leaves
  every other buffer alone. So, folding from the launch memory:
    * region 0 finds the features `x`, their neighbour sum, the reciprocal-degree column, two weight matrices
      and a bias row;
    * region 1 finds region 0's output `H1`, ITS neighbour sum, the same reciprocal-degree column, the second
      layer's weights and bias row;
    * region 2 finds region 1's output `H2`, its neighbour sum, the same column, the third layer's weights and
      bias row, and the classifier's matrix and bias row.
  Everything is a function of the launch memory `m` at the thirteen arguments and of `H1`, `H2`.
-/
import proofs.«170828_j31396210934185_2_alg».proof.Proof.Patched.KernelIdealFrame
import Idealize.ShloMosaic.Lib.StableHlo.Run
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import proofs.«170828_j31396210934185_2_alg».proof.Proof.Spec

set_option maxRecDepth 16384

noncomputable section

namespace Cert.KerEntry

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-! ## The host operations as functions -/

/-- The edge list's row `0` as a vector: the sources. -/
def srcVec (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The edge list's row `1` as a vector: the destinations. -/
def dstVec (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The neighbour sum of `x` along edges `s → d`: row `d e` receives row `s e` (a negative source wraps by the
    node count), summed over the edges `e`. -/
def nbrSumAt (x : (⟨S50000x128, .f32⟩ : BufTy).Contents (Elt F)) (s d : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 x
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- Each node's in-degree, as a float: ones scattered at the destinations. -/
def degree (d : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 d)
    (broadcastInDim S800000 ![] bcast_S_S800000 (constant S_ .f32 0x3F800000#32))

/-- The reciprocal of the degree clamped below by one, as a column. -/
def recipCol (d : (⟨S800000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32))
      (maximumf (degree d) (broadcastInDim S50000 ![] bcast_S_S50000 (constant S_ .f32 0x3F800000#32))))

/-- A 128-vector as a one-row matrix. -/
def biasRow (b : (⟨S128, .f32⟩ : BufTy).Contents (Elt F)) : (⟨S1x128, .f32⟩ : BufTy).Contents (Elt F) :=
  shapeCast _ b shapeCasts_S128_S1x128

/-- A 40-vector as a one-row matrix. -/
def biasRow40 (b : (⟨S40, .f32⟩ : BufTy).Contents (Elt F)) : (⟨S1x40, .f32⟩ : BufTy).Contents (Elt F) :=
  shapeCast _ b shapeCasts_S40_S1x40

variable (m : (ℓ : Loc nD τ sig) → Buf (Elt F) ℓ) (ρ : Dev nD → PrngReg) (c : Dev nD)

/-! ## Region 0's entry -/

theorem e0_x : W1 m ρ c (Proc.devRef .tc main_arg0) = m ((c : Thread nD τ).loc main_arg0) := by
  show StableHlo.after hostOps0 (W0 m ρ c) (Proc.devRef .tc main_arg0) = _
  after_results <;> rfl

theorem e0_wl : W1 m ρ c (Proc.devRef .tc main_arg2) = m ((c : Thread nD τ).loc main_arg2) := by
  show StableHlo.after hostOps0 (W0 m ρ c) (Proc.devRef .tc main_arg2) = _
  after_results <;> rfl

theorem e0_wr : W1 m ρ c (Proc.devRef .tc main_arg4) = m ((c : Thread nD τ).loc main_arg4) := by
  show StableHlo.after hostOps0 (W0 m ρ c) (Proc.devRef .tc main_arg4) = _
  after_results <;> rfl

theorem e0_bias : W1 m ρ c (Proc.devRef .tc main_v23) = biasRow (m ((c : Thread nD τ).loc main_arg3)) := by
  show StableHlo.after hostOps0 (W0 m ρ c) (Proc.devRef .tc main_v23) = _
  after_results <;> rfl

theorem e0_src : W1 m ρ c (Proc.devRef .tc main_v1) = srcVec (m ((c : Thread nD τ).loc main_arg1)) := by
  show StableHlo.after hostOps0 (W0 m ρ c) (Proc.devRef .tc main_v1) = _
  after_results <;> rfl

theorem e0_dst : W1 m ρ c (Proc.devRef .tc main_v3) = dstVec (m ((c : Thread nD τ).loc main_arg1)) := by
  show StableHlo.after hostOps0 (W0 m ρ c) (Proc.devRef .tc main_v3) = _
  after_results <;> rfl

theorem e0_recip : W1 m ρ c (Proc.devRef .tc main_v12) = recipCol (dstVec (m ((c : Thread nD τ).loc main_arg1))) := by
  show StableHlo.after hostOps0 (W0 m ρ c) (Proc.devRef .tc main_v12) = _
  after_results <;> rfl

set_option maxHeartbeats 4000000 in
theorem e0_nbr : W1 m ρ c (Proc.devRef .tc main_v22)
    = nbrSumAt (m ((c : Thread nD τ).loc main_arg0)) (srcVec (m ((c : Thread nD τ).loc main_arg1))) (dstVec (m ((c : Thread nD τ).loc main_arg1))) := by
  show StableHlo.after hostOps0 (W0 m ρ c) (Proc.devRef .tc main_v22) = _
  after_results_simp; rfl

/-! ## What regions 0 and 1 leave: their output arrays, and everything else untouched -/

/-- Region 0's output array when it exits. -/
abbrev H1 : (⟨S50000x128, .f32⟩ : BufTy).Contents (Elt F) := (dat0 (V1 m ρ) c).arrAt 6 cfg0.N
/-- Region 1's output array when it exits. -/
abbrev H2 : (⟨S50000x128, .f32⟩ : BufTy).Contents (Elt F) := (dat1 (V3 m ρ) c).arrAt 6 cfg1.N

/-- A buffer that is no array of region 0, and that the first host stretch leaves at its launch contents, still holds
    them when region 0 exits. -/
theorem keep2 (b : Ref sig .tc) (hb : ∀ w, Pipeline.arrRef spec0 w ≠ b) :
    W2 m ρ c (Proc.devRef .tc b) = W1 m ρ c (Proc.devRef .tc b) := W2_of_ne m ρ c b hb

theorem w2_src : W2 m ρ c (Proc.devRef .tc main_v1) = srcVec (m ((c : Thread nD τ).loc main_arg1)) :=
  (keep2 m ρ c main_v1 (by decide)).trans (e0_src m ρ c)
theorem w2_dst : W2 m ρ c (Proc.devRef .tc main_v3) = dstVec (m ((c : Thread nD τ).loc main_arg1)) :=
  (keep2 m ρ c main_v3 (by decide)).trans (e0_dst m ρ c)
/-- The reciprocal-degree column is an input array of region 0: the region leaves it as it found it. -/
theorem w2_recip : W2 m ρ c (Proc.devRef .tc main_v12) = recipCol (dstVec (m ((c : Thread nD τ).loc main_arg1))) :=
  ((W2_arr m ρ c 2).trans (((dat0 (V1 m ρ) c).arrAt_in 2 rfl _).trans (A_eq0 (V1 m ρ) c 2))).trans (e0_recip m ρ c)
theorem w2_out : W2 m ρ c (Proc.devRef .tc main_v24) = H1 m ρ c := W2_arr m ρ c 6

/-- An argument that no host operation of the first stretch writes. -/
theorem w1_arg5 : W1 m ρ c (Proc.devRef .tc main_arg5) = m ((c : Thread nD τ).loc main_arg5) := by
  show StableHlo.after hostOps0 (W0 m ρ c) (Proc.devRef .tc main_arg5) = _
  after_results <;> rfl
theorem w1_arg6 : W1 m ρ c (Proc.devRef .tc main_arg6) = m ((c : Thread nD τ).loc main_arg6) := by
  show StableHlo.after hostOps0 (W0 m ρ c) (Proc.devRef .tc main_arg6) = _
  after_results <;> rfl
theorem w1_arg7 : W1 m ρ c (Proc.devRef .tc main_arg7) = m ((c : Thread nD τ).loc main_arg7) := by
  show StableHlo.after hostOps0 (W0 m ρ c) (Proc.devRef .tc main_arg7) = _
  after_results <;> rfl
theorem w1_arg8 : W1 m ρ c (Proc.devRef .tc main_arg8) = m ((c : Thread nD τ).loc main_arg8) := by
  show StableHlo.after hostOps0 (W0 m ρ c) (Proc.devRef .tc main_arg8) = _
  after_results <;> rfl
theorem w1_arg9 : W1 m ρ c (Proc.devRef .tc main_arg9) = m ((c : Thread nD τ).loc main_arg9) := by
  show StableHlo.after hostOps0 (W0 m ρ c) (Proc.devRef .tc main_arg9) = _
  after_results <;> rfl
theorem w1_arg10 : W1 m ρ c (Proc.devRef .tc main_arg10) = m ((c : Thread nD τ).loc main_arg10) := by
  show StableHlo.after hostOps0 (W0 m ρ c) (Proc.devRef .tc main_arg10) = _
  after_results <;> rfl
theorem w1_arg11 : W1 m ρ c (Proc.devRef .tc main_arg11) = m ((c : Thread nD τ).loc main_arg11) := by
  show StableHlo.after hostOps0 (W0 m ρ c) (Proc.devRef .tc main_arg11) = _
  after_results <;> rfl
theorem w1_arg12 : W1 m ρ c (Proc.devRef .tc main_arg12) = m ((c : Thread nD τ).loc main_arg12) := by
  show StableHlo.after hostOps0 (W0 m ρ c) (Proc.devRef .tc main_arg12) = _
  after_results <;> rfl

/-! ## Region 1's entry -/

theorem e1_x : W3 m ρ c (Proc.devRef .tc main_v24) = H1 m ρ c := by
  show StableHlo.after hostOps1 (W2 m ρ c) (Proc.devRef .tc main_v24) = _
  after_results; exact w2_out m ρ c

theorem e1_recip : W3 m ρ c (Proc.devRef .tc main_v12) = recipCol (dstVec (m ((c : Thread nD τ).loc main_arg1))) := by
  show StableHlo.after hostOps1 (W2 m ρ c) (Proc.devRef .tc main_v12) = _
  after_results; exact w2_recip m ρ c

theorem e1_wl : W3 m ρ c (Proc.devRef .tc main_arg5) = m ((c : Thread nD τ).loc main_arg5) := by
  show StableHlo.after hostOps1 (W2 m ρ c) (Proc.devRef .tc main_arg5) = _
  after_results; exact (keep2 m ρ c main_arg5 (by decide)).trans (w1_arg5 m ρ c)

theorem e1_wr : W3 m ρ c (Proc.devRef .tc main_arg7) = m ((c : Thread nD τ).loc main_arg7) := by
  show StableHlo.after hostOps1 (W2 m ρ c) (Proc.devRef .tc main_arg7) = _
  after_results; exact (keep2 m ρ c main_arg7 (by decide)).trans (w1_arg7 m ρ c)

theorem e1_bias : W3 m ρ c (Proc.devRef .tc main_v35) = biasRow (m ((c : Thread nD τ).loc main_arg6)) := by
  show StableHlo.after hostOps1 (W2 m ρ c) (Proc.devRef .tc main_v35) = _
  after_results
  rw [(keep2 m ρ c main_arg6 (by decide)).trans (w1_arg6 m ρ c)]; rfl

set_option maxHeartbeats 2000000 in
theorem e1_nbr : W3 m ρ c (Proc.devRef .tc main_v34)
    = nbrSumAt (H1 m ρ c) (srcVec (m ((c : Thread nD τ).loc main_arg1))) (dstVec (m ((c : Thread nD τ).loc main_arg1))) := by
  show StableHlo.after hostOps1 (W2 m ρ c) (Proc.devRef .tc main_v34) = _
  after_results_simp
  rw [w2_out m ρ c, w2_src m ρ c, w2_dst m ρ c]; rfl

/-! ## Region 1's exit, and region 2's entry -/

theorem keep4 (b : Ref sig .tc) (hb : ∀ w, Pipeline.arrRef spec1 w ≠ b) :
    W4 m ρ c (Proc.devRef .tc b) = W3 m ρ c (Proc.devRef .tc b) := W4_of_ne m ρ c b hb

theorem w3_src : W3 m ρ c (Proc.devRef .tc main_v1) = srcVec (m ((c : Thread nD τ).loc main_arg1)) := by
  show StableHlo.after hostOps1 (W2 m ρ c) (Proc.devRef .tc main_v1) = _
  after_results; exact w2_src m ρ c
theorem w3_dst : W3 m ρ c (Proc.devRef .tc main_v3) = dstVec (m ((c : Thread nD τ).loc main_arg1)) := by
  show StableHlo.after hostOps1 (W2 m ρ c) (Proc.devRef .tc main_v3) = _
  after_results; exact w2_dst m ρ c
theorem w4_src : W4 m ρ c (Proc.devRef .tc main_v1) = srcVec (m ((c : Thread nD τ).loc main_arg1)) :=
  (keep4 m ρ c main_v1 (by decide)).trans (w3_src m ρ c)
theorem w4_dst : W4 m ρ c (Proc.devRef .tc main_v3) = dstVec (m ((c : Thread nD τ).loc main_arg1)) :=
  (keep4 m ρ c main_v3 (by decide)).trans (w3_dst m ρ c)
theorem w4_recip : W4 m ρ c (Proc.devRef .tc main_v12) = recipCol (dstVec (m ((c : Thread nD τ).loc main_arg1))) :=
  ((W4_arr m ρ c 2).trans (((dat1 (V3 m ρ) c).arrAt_in 2 rfl _).trans (A_eq1 (V3 m ρ) c 2))).trans (e1_recip m ρ c)
theorem w4_out : W4 m ρ c (Proc.devRef .tc main_v36) = H2 m ρ c := W4_arr m ρ c 6

/-- An argument that neither the second host stretch nor regions 0 and 1 touch is at its launch contents when region 1
    exits. -/
theorem w4_arg (b : Ref sig .tc) (h0 : ∀ w, Pipeline.arrRef spec0 w ≠ b) (h1 : ∀ w, Pipeline.arrRef spec1 w ≠ b)
    (h3 : W3 m ρ c (Proc.devRef .tc b) = W2 m ρ c (Proc.devRef .tc b))
    (hm : W1 m ρ c (Proc.devRef .tc b) = m ((c : Thread nD τ).loc b)) :
    W4 m ρ c (Proc.devRef .tc b) = m ((c : Thread nD τ).loc b) :=
  (keep4 m ρ c b h1).trans (h3.trans ((keep2 m ρ c b h0).trans hm))

theorem w3_arg8 : W3 m ρ c (Proc.devRef .tc main_arg8) = W2 m ρ c (Proc.devRef .tc main_arg8) := by
  show StableHlo.after hostOps1 (W2 m ρ c) (Proc.devRef .tc main_arg8) = _
  after_results <;> rfl
theorem w3_arg9 : W3 m ρ c (Proc.devRef .tc main_arg9) = W2 m ρ c (Proc.devRef .tc main_arg9) := by
  show StableHlo.after hostOps1 (W2 m ρ c) (Proc.devRef .tc main_arg9) = _
  after_results <;> rfl
theorem w3_arg10 : W3 m ρ c (Proc.devRef .tc main_arg10) = W2 m ρ c (Proc.devRef .tc main_arg10) := by
  show StableHlo.after hostOps1 (W2 m ρ c) (Proc.devRef .tc main_arg10) = _
  after_results <;> rfl
theorem w3_arg11 : W3 m ρ c (Proc.devRef .tc main_arg11) = W2 m ρ c (Proc.devRef .tc main_arg11) := by
  show StableHlo.after hostOps1 (W2 m ρ c) (Proc.devRef .tc main_arg11) = _
  after_results <;> rfl
theorem w3_arg12 : W3 m ρ c (Proc.devRef .tc main_arg12) = W2 m ρ c (Proc.devRef .tc main_arg12) := by
  show StableHlo.after hostOps1 (W2 m ρ c) (Proc.devRef .tc main_arg12) = _
  after_results <;> rfl

theorem e2_x : W5 m ρ c (Proc.devRef .tc main_v36) = H2 m ρ c := by
  show StableHlo.after hostOps2 (W4 m ρ c) (Proc.devRef .tc main_v36) = _
  after_results; exact w4_out m ρ c

theorem e2_recip : W5 m ρ c (Proc.devRef .tc main_v12) = recipCol (dstVec (m ((c : Thread nD τ).loc main_arg1))) := by
  show StableHlo.after hostOps2 (W4 m ρ c) (Proc.devRef .tc main_v12) = _
  after_results; exact w4_recip m ρ c

theorem e2_wl : W5 m ρ c (Proc.devRef .tc main_arg8) = m ((c : Thread nD τ).loc main_arg8) := by
  show StableHlo.after hostOps2 (W4 m ρ c) (Proc.devRef .tc main_arg8) = _
  after_results; exact w4_arg m ρ c main_arg8 (by decide) (by decide) (w3_arg8 m ρ c) (w1_arg8 m ρ c)

theorem e2_wr : W5 m ρ c (Proc.devRef .tc main_arg10) = m ((c : Thread nD τ).loc main_arg10) := by
  show StableHlo.after hostOps2 (W4 m ρ c) (Proc.devRef .tc main_arg10) = _
  after_results; exact w4_arg m ρ c main_arg10 (by decide) (by decide) (w3_arg10 m ρ c) (w1_arg10 m ρ c)

theorem e2_wfc : W5 m ρ c (Proc.devRef .tc main_arg11) = m ((c : Thread nD τ).loc main_arg11) := by
  show StableHlo.after hostOps2 (W4 m ρ c) (Proc.devRef .tc main_arg11) = _
  after_results; exact w4_arg m ρ c main_arg11 (by decide) (by decide) (w3_arg11 m ρ c) (w1_arg11 m ρ c)

theorem e2_bias : W5 m ρ c (Proc.devRef .tc main_v47) = biasRow (m ((c : Thread nD τ).loc main_arg9)) := by
  show StableHlo.after hostOps2 (W4 m ρ c) (Proc.devRef .tc main_v47) = _
  after_results
  rw [w4_arg m ρ c main_arg9 (by decide) (by decide) (w3_arg9 m ρ c) (w1_arg9 m ρ c)]; rfl

theorem e2_bfc : W5 m ρ c (Proc.devRef .tc main_v48) = biasRow40 (m ((c : Thread nD τ).loc main_arg12)) := by
  show StableHlo.after hostOps2 (W4 m ρ c) (Proc.devRef .tc main_v48) = _
  after_results
  rw [w4_arg m ρ c main_arg12 (by decide) (by decide) (w3_arg12 m ρ c) (w1_arg12 m ρ c)]; rfl

set_option maxHeartbeats 2000000 in
theorem e2_nbr : W5 m ρ c (Proc.devRef .tc main_v46)
    = nbrSumAt (H2 m ρ c) (srcVec (m ((c : Thread nD τ).loc main_arg1))) (dstVec (m ((c : Thread nD τ).loc main_arg1))) := by
  show StableHlo.after hostOps2 (W4 m ρ c) (Proc.devRef .tc main_v46) = _
  after_results_simp
  rw [w4_out m ρ c, w4_src m ρ c, w4_dst m ρ c]; rfl

/-- The result array, when the program returns, is region 2's output array. -/
theorem w6_out : W6 m ρ c (Proc.devRef .tc main_v49) = (dat2 (V5 m ρ) c).arrAt 8 cfg2.N := W6_arr m ρ c 8

/-! ## The host terms read at an index, on the extended reals -/

section AtIdeal

open Idealize.ShloMosaic.ValueIdx Cert.SageSpec

/-- The bias row at column `j` is the bias vector's entry `j`. -/
theorem biasRow_apply (b : (⟨S128, .f32⟩ : BufTy).Contents (Elt Ideal)) (j : Fin 128) :
    biasRow (F := Ideal) b (ix2 0 j) = b (ix1 j) :=
  shapeCast_a_1a_apply b shapeCasts_S128_S1x128 0 j

theorem biasRow40_apply (b : (⟨S40, .f32⟩ : BufTy).Contents (Elt Ideal)) (j : Fin 40) :
    biasRow40 (F := Ideal) b (ix2 0 j) = b (ix1 j) :=
  shapeCast_a_1a_apply b shapeCasts_S40_S1x40 0 j

/-- A broadcast of the word of one, read at an index. -/
theorem ones_at (i : S50000.Idx) :
    broadcastInDim S50000 ![] bcast_S_S50000 (constant (F := Ideal) S_ .f32 0x3F800000#32) i = w1 :=
  broadcastInDim_apply _ bcast_S_S50000 (constant (F := Ideal) S_ .f32 0x3F800000#32) i (fun a => a.elim0) (fun a => a.elim0)

/-- The host's quotient by a maximum, read at an index. -/
theorem divmax_at (A D : FVec Ideal S50000 .f32) (i : S50000.Idx) :
    Host.divf A (maximumf D A) i = Ideal.div (A i) (max (D i) (A i)) := rfl

/-- The reciprocal column at node `r` is one over the node's degree clamped below by one. -/
theorem recipCol_apply (d : (⟨S800000, .i32⟩ : BufTy).Contents (Elt Ideal)) (r : Fin 50000) :
    recipCol (F := Ideal) d (ix2 r 0) = Ideal.div w1 (max (degree (F := Ideal) d (ix1 r)) w1) := by
  unfold recipCol
  generalize degree (F := Ideal) d = D
  generalize hA : broadcastInDim S50000 ![] bcast_S_S50000 (constant (F := Ideal) S_ .f32 0x3F800000#32) = A
  generalize hQ : Host.divf A (maximumf D A) = Q
  rw [broadcastInDim_apply _ bcast_S50000_S50000x1_0 Q (ix2 r 0) (ix1 r) (fun a => match a with
    | ⟨0, _⟩ => by show r.val = if (50000 : Nat) = 1 then 0 else r.val; rw [if_neg (by decide)])]
  rw [← hQ, divmax_at, ← hA, ones_at]

end AtIdeal

end Cert.KerEntry

end
-- ==== Proof.KerValue.lean ====
/-
  The idealized kernel program's three output arrays, entry by entry.

  Each region's output array is, row by row, the row function of the specification applied to that row of the arrays
  the region finds at its entry (from the blocks-to-array step and the body's arithmetic); the arrays it finds are
  functions of the launch memory and of the previous region's output (from the host stretches). Put together: the
  first region's output `H1` is the first layer of the launch features, the second's `H2` the second layer of
  `H1`, and the result array the third layer of `H2` followed by the classifier and the softmax — each with the mean
  over in-neighbours taken as the neighbour sum times the reciprocal clamped degree.
-/
import proofs.«170828_j31396210934185_2_alg».proof.Proof.KerArr0
import proofs.«170828_j31396210934185_2_alg».proof.Proof.KerArr1
import proofs.«170828_j31396210934185_2_alg».proof.Proof.KerArr2
import proofs.«170828_j31396210934185_2_alg».proof.Proof.KerOut
import proofs.«170828_j31396210934185_2_alg».proof.Proof.KerEntry

set_option maxRecDepth 16384

noncomputable section

namespace Cert.KerValue

open Cert.KernelIdeal Cert.KernelIdeal.Gen Cert.KernelIdeal.GenP
open Idealize.ShloMosaic Idealize.ShloMosaic.TcCoe Idealize.SL.Sem
open Idealize.ShloMosaic.ValueIdx Cert.SageSpec Cert.KerEntry

variable (m : (ℓ : Loc nD τ sig) → Buf (Elt Ideal) ℓ) (ρ : Dev nD → PrngReg) (c : Dev nD)

/-- Region 0's output at node `r`, feature `q`: the first layer's row of the launch features. -/
theorem H1_apply (r : Fin 50000) (q : Fin 128) :
    H1 (F := Ideal) m ρ c (ix2 r q) = unitPos (lin (fun k => nbrSumAt (F := Ideal) (m ((c : Thread nD τ).loc main_arg0)) (srcVec (m ((c : Thread nD τ).loc main_arg1))) (dstVec (m ((c : Thread nD τ).loc main_arg1))) (ix2 r k) * recipCol (F := Ideal) (dstVec (m ((c : Thread nD τ).loc main_arg1))) (ix2 r (0 : Fin 1)))
        (fun k => m ((c : Thread nD τ).loc main_arg0) (ix2 r k)) (fun k j => m ((c : Thread nD τ).loc main_arg2) (ix2 k j)) (fun k j => m ((c : Thread nD τ).loc main_arg4) (ix2 k j)) (fun j => biasRow (F := Ideal) (m ((c : Thread nD τ).loc main_arg3)) (ix2 0 j))) q := by
  have e0 : (V1 m ρ c (Pipeline.arrRef spec0 0) : S50000x128.Idx → EReal) = m ((c : Thread nD τ).loc main_arg0) := e0_x m ρ c
  have e1 : (V1 m ρ c (Pipeline.arrRef spec0 1) : S50000x128.Idx → EReal) = nbrSumAt (F := Ideal) (m ((c : Thread nD τ).loc main_arg0)) (srcVec (m ((c : Thread nD τ).loc main_arg1))) (dstVec (m ((c : Thread nD τ).loc main_arg1))) := e0_nbr m ρ c
  have e2 : (V1 m ρ c (Pipeline.arrRef spec0 2) : S50000x1.Idx → EReal) = recipCol (F := Ideal) (dstVec (m ((c : Thread nD τ).loc main_arg1))) := e0_recip m ρ c
  have e3 : (V1 m ρ c (Pipeline.arrRef spec0 3) : S128x128.Idx → EReal) = m ((c : Thread nD τ).loc main_arg2) := e0_wl m ρ c
  have e4 : (V1 m ρ c (Pipeline.arrRef spec0 4) : S128x128.Idx → EReal) = m ((c : Thread nD τ).loc main_arg4) := e0_wr m ρ c
  have e5 : (V1 m ρ c (Pipeline.arrRef spec0 5) : S1x128.Idx → EReal) = biasRow (F := Ideal) (m ((c : Thread nD τ).loc main_arg3)) := e0_bias m ρ c
  refine (KerArr0.final0 (V1 m ρ) c (fun xr sr icv Wl Wr b q => unitPos (lin (fun k => sr k * icv) xr (fun k j => Wl (ix2 k j)) (fun k j => Wr (ix2 k j)) (fun j => b (ix2 0 j))) q)
    (fun x0 x1 x2 x3 x4 x5 p q => KerOut.out0_apply x0 x1 x2 x3 x4 x5 p q) r q).trans ?_
  simp only [e0, e1, e2, e3, e4, e5]

/-- Region 1's output: the second layer's row of `H1`. -/
theorem H2_apply (r : Fin 50000) (q : Fin 128) :
    H2 (F := Ideal) m ρ c (ix2 r q) = unitPos (lin (fun k => nbrSumAt (F := Ideal) (H1 (F := Ideal) m ρ c) (srcVec (m ((c : Thread nD τ).loc main_arg1))) (dstVec (m ((c : Thread nD τ).loc main_arg1))) (ix2 r k) * recipCol (F := Ideal) (dstVec (m ((c : Thread nD τ).loc main_arg1))) (ix2 r (0 : Fin 1)))
        (fun k => H1 (F := Ideal) m ρ c (ix2 r k)) (fun k j => m ((c : Thread nD τ).loc main_arg5) (ix2 k j)) (fun k j => m ((c : Thread nD τ).loc main_arg7) (ix2 k j)) (fun j => biasRow (F := Ideal) (m ((c : Thread nD τ).loc main_arg6)) (ix2 0 j))) q := by
  have e0 : (V3 m ρ c (Pipeline.arrRef spec1 0) : S50000x128.Idx → EReal) = H1 (F := Ideal) m ρ c := e1_x m ρ c
  have e1 : (V3 m ρ c (Pipeline.arrRef spec1 1) : S50000x128.Idx → EReal) = nbrSumAt (F := Ideal) (H1 (F := Ideal) m ρ c) (srcVec (m ((c : Thread nD τ).loc main_arg1))) (dstVec (m ((c : Thread nD τ).loc main_arg1))) := e1_nbr m ρ c
  have e2 : (V3 m ρ c (Pipeline.arrRef spec1 2) : S50000x1.Idx → EReal) = recipCol (F := Ideal) (dstVec (m ((c : Thread nD τ).loc main_arg1))) := e1_recip m ρ c
  have e3 : (V3 m ρ c (Pipeline.arrRef spec1 3) : S128x128.Idx → EReal) = m ((c : Thread nD τ).loc main_arg5) := e1_wl m ρ c
  have e4 : (V3 m ρ c (Pipeline.arrRef spec1 4) : S128x128.Idx → EReal) = m ((c : Thread nD τ).loc main_arg7) := e1_wr m ρ c
  have e5 : (V3 m ρ c (Pipeline.arrRef spec1 5) : S1x128.Idx → EReal) = biasRow (F := Ideal) (m ((c : Thread nD τ).loc main_arg6)) := e1_bias m ρ c
  refine (KerArr1.final1 (V3 m ρ) c (fun xr sr icv Wl Wr b q => unitPos (lin (fun k => sr k * icv) xr (fun k j => Wl (ix2 k j)) (fun k j => Wr (ix2 k j)) (fun j => b (ix2 0 j))) q)
    (fun x0 x1 x2 x3 x4 x5 p q => KerOut.out1_apply x0 x1 x2 x3 x4 x5 p q) r q).trans ?_
  simp only [e0, e1, e2, e3, e4, e5]

/-- The result array when the program returns: the third layer's row of `H2` (no clamp at zero), through the classifier
    and the softmax. -/
theorem result_apply (r : Fin 50000) (q : Fin 40) :
    (W6 (F := Ideal) m ρ c (Proc.devRef .tc main_v49) : S50000x40.Idx → EReal) (ix2 r q)
      = softmax (logits (unit (lin (fun k => nbrSumAt (F := Ideal) (H2 (F := Ideal) m ρ c) (srcVec (m ((c : Thread nD τ).loc main_arg1))) (dstVec (m ((c : Thread nD τ).loc main_arg1))) (ix2 r k) * recipCol (F := Ideal) (dstVec (m ((c : Thread nD τ).loc main_arg1))) (ix2 r (0 : Fin 1)))
        (fun k => H2 (F := Ideal) m ρ c (ix2 r k)) (fun k j => m ((c : Thread nD τ).loc main_arg8) (ix2 k j)) (fun k j => m ((c : Thread nD τ).loc main_arg10) (ix2 k j)) (fun j => biasRow (F := Ideal) (m ((c : Thread nD τ).loc main_arg9)) (ix2 0 j))))
          (fun k j => m ((c : Thread nD τ).loc main_arg11) (ix2 k j)) (fun j => biasRow40 (F := Ideal) (m ((c : Thread nD τ).loc main_arg12)) (ix2 0 j))) q := by
  have e0 : (V5 m ρ c (Pipeline.arrRef spec2 0) : S50000x128.Idx → EReal) = H2 (F := Ideal) m ρ c := e2_x m ρ c
  have e1 : (V5 m ρ c (Pipeline.arrRef spec2 1) : S50000x128.Idx → EReal) = nbrSumAt (F := Ideal) (H2 (F := Ideal) m ρ c) (srcVec (m ((c : Thread nD τ).loc main_arg1))) (dstVec (m ((c : Thread nD τ).loc main_arg1))) := e2_nbr m ρ c
  have e2 : (V5 m ρ c (Pipeline.arrRef spec2 2) : S50000x1.Idx → EReal) = recipCol (F := Ideal) (dstVec (m ((c : Thread nD τ).loc main_arg1))) := e2_recip m ρ c
  have e3 : (V5 m ρ c (Pipeline.arrRef spec2 3) : S128x128.Idx → EReal) = m ((c : Thread nD τ).loc main_arg8) := e2_wl m ρ c
  have e4 : (V5 m ρ c (Pipeline.arrRef spec2 4) : S128x128.Idx → EReal) = m ((c : Thread nD τ).loc main_arg10) := e2_wr m ρ c
  have e5 : (V5 m ρ c (Pipeline.arrRef spec2 5) : S1x128.Idx → EReal) = biasRow (F := Ideal) (m ((c : Thread nD τ).loc main_arg9)) := e2_bias m ρ c
  have e6 : (V5 m ρ c (Pipeline.arrRef spec2 6) : S128x40.Idx → EReal) = m ((c : Thread nD τ).loc main_arg11) := e2_wfc m ρ c
  have e7 : (V5 m ρ c (Pipeline.arrRef spec2 7) : S1x40.Idx → EReal) = biasRow40 (F := Ideal) (m ((c : Thread nD τ).loc main_arg12)) := e2_bfc m ρ c
  rw [w6_out m ρ c]
  refine (KerArr2.final2 (V5 m ρ) c (fun xr sr icv Wl Wr b Wfc bfc q => softmax (logits (unit (lin (fun k => sr k * icv) xr (fun k j => Wl (ix2 k j)) (fun k j => Wr (ix2 k j)) (fun j => b (ix2 0 j)))) (fun k j => Wfc (ix2 k j)) (fun j => bfc (ix2 0 j))) q)
    (fun x0 x1 x2 x3 x4 x5 x6 x7 p q => KerOut.out2_apply x0 x1 x2 x3 x4 x5 x6 x7 p q) r q).trans ?_
  simp only [e0, e1, e2, e3, e4, e5, e6, e7]

end Cert.KerValue

end
-- ==== Proof.KerRun.lean ====
/-
  The idealized kernel program's run, with its whole final memory named.

  The program is three kernel regions between stretches of host operations. Folding through it from the launch
  memory — a host stretch replaces the buffers it writes by its operations' values, a region replaces its
  arrays by what its write-backs leave — gives the contents `W6 m ρ c` of every unscoped buffer of core `c`
  when the program returns. The frame claim keeps, of that, only that the argument arrays are unchanged; a value
  claim also needs the result array. So the same run is stated here with the whole of `W6` in its post:
  every weakly fair execution terminates, nothing faults, and every unscoped buffer ends at `W6`.
-/
import proofs.«170828_j31396210934185_2_alg».proof.Proof.Patched.KernelIdealFrame

set_option maxRecDepth 16384

noncomputable section

namespace Cert.KerRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in every final state each unscoped
    buffer of each core holds the fold's final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KerRun

end
-- ==== Proof.RefRows.lean ====
/-
  The reference program, read one node (one row) at a time.

  Each of the reference's three layers is the same chain of array operations applied to a feature array `x`: the
  neighbour sum and the in-degree count (two scatters, left opaque here), the mean by division by the count clamped
  below by one, two products with weight matrices and a bias, the division of each row by its Euclidean norm clamped
  below by ε, and (layers one and two) a clamp below by zero. Read at the entry (r, q), the chain is the row function
  `unitPos (lin …)` (or `unit (lin …)`) of the specification, evaluated on row r of the operands. The second and third
  layers are the first layer's functions applied to the previous layer's result. The tail is an affine map into 40
  classes followed by a softmax taken relative to the row's maximum.
-/
import proofs.«170828_j31396210934185_2_alg».proof.Proof.Spec
import proofs.«170828_j31396210934185_2_alg».proof.Proof.Patched.ReferenceIdealRead

noncomputable section

namespace Cert.RefRows

open Cert.ReferenceIdeal Cert.ReferenceIdeal.Gen Cert.ReferenceIdeal.ReadP Cert.SageSpec
open Idealize.ShloMosaic Idealize.ShloMosaic.ValueIdx

/-! ## One layer -/

section Layer

variable (x : (⟨S50000x128, .f32⟩ : BufTy).Contents (Elt Ideal)) (ei : (⟨S2x800000, .i32⟩ : BufTy).Contents (Elt Ideal))
  (Wl : (⟨S128x128, .f32⟩ : BufTy).Contents (Elt Ideal)) (b : (⟨S128, .f32⟩ : BufTy).Contents (Elt Ideal)) (Wr : (⟨S128x128, .f32⟩ : BufTy).Contents (Elt Ideal))

/-! The composed index maps of the layer's broadcasts, products and row sum, at an entry (r, q). -/

/-- The count of row r, broadcast along the row, is read at r. -/
theorem count_idx (r : Fin 50000) (k : Fin 128) : idx_main_v20 (idx_main_v21 (ix2 r k)) = ix1 r :=
  funext fun a => Fin.ext (by match a with | ⟨0, _⟩ => rfl)

/-- The bias, broadcast down the rows, is read at the column. -/
theorem bias_idx (r : Fin 50000) (j : Fin 128) : idx_main_v24 (idx_main_v25 (ix2 r j)) = ix1 j :=
  funext fun a => Fin.ext (by match a with | ⟨0, _⟩ => rfl)

/-- The product with the first weight matrix reads row r of its left operand … -/
theorem left_idx_mean (r : Fin 50000) (j k : Fin 128) : lidx_main_v23 (ix2 r j) k = ix2 r k :=
  funext fun a => Fin.ext (by match a with | ⟨0, _⟩ => rfl | ⟨1, _⟩ => rfl)

/-- … and column j of the matrix. -/
theorem right_idx_mean (r : Fin 50000) (j k : Fin 128) : ridx_main_v23 (ix2 r j) k = ix2 k j :=
  funext fun a => Fin.ext (by match a with | ⟨0, _⟩ => rfl | ⟨1, _⟩ => rfl)

/-- The product with the second weight matrix likewise. -/
theorem left_idx_self (r : Fin 50000) (j k : Fin 128) : lidx_main_v27 (ix2 r j) k = ix2 r k :=
  funext fun a => Fin.ext (by match a with | ⟨0, _⟩ => rfl | ⟨1, _⟩ => rfl)

theorem right_idx_self (r : Fin 50000) (j k : Fin 128) : ridx_main_v27 (ix2 r j) k = ix2 k j :=
  funext fun a => Fin.ext (by match a with | ⟨0, _⟩ => rfl | ⟨1, _⟩ => rfl)

/-- The sum of squares of row r, broadcast along the row, runs over the entries of row r. -/
theorem square_idx (r : Fin 50000) (q k : Fin 128) :
    idx_main_call0_v1 (idx_main_call0_v2 (idx_main_v32 (ix2 r q))) k = ix2 r k :=
  funext fun a => Fin.ext (by match a with | ⟨0, _⟩ => rfl | ⟨1, _⟩ => rfl)

/-- The mean of the in-neighbours' rows: the neighbour sum divided by the count clamped below by one. -/
theorem mean_apply (r : Fin 50000) (k : Fin 128) :
    val_main_v22 (F := Ideal) x ei (ix2 r k)
      = Ideal.div (val_main_v13 (F := Ideal) x ei (ix2 r k)) (max (val_main_v17 (F := Ideal) ei (ix1 r)) w1) := by
  rw [val_main_v22_apply, val_main_v21_apply, val_main_v20_apply, val_main_v19_apply, val_main_v18_apply,
    val_main_cst_3_apply, count_idx]
  rfl

/-- The affine row: (mean row)·Wl + bias + (own row)·Wr. -/
theorem affine_apply (r : Fin 50000) (j : Fin 128) :
    val_main_v28 (F := Ideal) x ei Wl b Wr (ix2 r j)
      = lin (fun k => Ideal.div (val_main_v13 (F := Ideal) x ei (ix2 r k)) (max (val_main_v17 (F := Ideal) ei (ix1 r)) w1))
          (fun k => x (ix2 r k)) (fun k j => Wl (ix2 k j)) (fun k j => Wr (ix2 k j)) (fun j => b (ix1 j)) j := by
  rw [val_main_v28_apply, val_main_v26_apply, val_main_v23_apply, val_main_v25_apply, val_main_v24_apply,
    val_main_v27_apply, bias_idx]
  simp only [left_idx_mean, right_idx_mean, left_idx_self, right_idx_self, mean_apply]
  rfl

/-- The layer before its clamp at zero: the affine row divided by its Euclidean norm clamped below by ε. -/
theorem layer_apply (r : Fin 50000) (q : Fin 128) :
    val_main_v33 (F := Ideal) x ei Wl b Wr (ix2 r q)
      = unit (lin (fun k => Ideal.div (val_main_v13 (F := Ideal) x ei (ix2 r k)) (max (val_main_v17 (F := Ideal) ei (ix1 r)) w1))
          (fun k => x (ix2 r k)) (fun k j => Wl (ix2 k j)) (fun k j => Wr (ix2 k j)) (fun j => b (ix1 j))) q := by
  have hsq : ∀ k : Fin 128,
      val_main_call0_v0 (F := Ideal) x ei Wl b Wr (idx_main_call0_v1 (idx_main_call0_v2 (idx_main_v32 (ix2 r q))) k)
        = (lin (fun k => Ideal.div (val_main_v13 (F := Ideal) x ei (ix2 r k)) (max (val_main_v17 (F := Ideal) ei (ix1 r)) w1))
          (fun k => x (ix2 r k)) (fun k j => Wl (ix2 k j)) (fun k j => Wr (ix2 k j)) (fun j => b (ix1 j))) k
          * (lin (fun k => Ideal.div (val_main_v13 (F := Ideal) x ei (ix2 r k)) (max (val_main_v17 (F := Ideal) ei (ix1 r)) w1))
          (fun k => x (ix2 r k)) (fun k j => Wl (ix2 k j)) (fun k j => Wr (ix2 k j)) (fun j => b (ix1 j))) k := fun k => by
    rw [square_idx, val_main_call0_v0_apply, affine_apply]
    rfl
  rw [val_main_v33_apply, val_main_v32_apply, val_main_v31_apply, val_main_v29_apply, val_main_call0_v2_apply,
    val_main_call0_v1_apply, val_main_call0_cst_apply, val_main_v30_apply, val_main_cst_4_apply, affine_apply,
    Finset.sum_congr rfl fun k _ => hsq k, Ideal.ofBits_def, Ideal.ofBits_zero_f32, zero_add, Ideal.hostDivf_def,
    Ideal.maximumf_def, Ideal.hostUnary_sqrt_def, Ideal.ofBits_def]
  rfl

/-- The layer with its clamp at zero. -/
theorem layer_pos_apply (r : Fin 50000) (q : Fin 128) :
    val_main_v34 (F := Ideal) x ei Wl b Wr (ix2 r q)
      = unitPos (lin (fun k => Ideal.div (val_main_v13 (F := Ideal) x ei (ix2 r k)) (max (val_main_v17 (F := Ideal) ei (ix1 r)) w1))
          (fun k => x (ix2 r k)) (fun k j => Wl (ix2 k j)) (fun k j => Wr (ix2 k j)) (fun j => b (ix1 j))) q := by
  rw [val_main_v34_apply, val_main_call1_v0_apply, val_main_call1_cst_apply, layer_apply, Ideal.maximumf_def,
    Ideal.ofBits_def]
  rfl

end Layer

/-! ## The second and third layers are the first layer's functions of the previous layer's result -/

section Stack

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal))
  (x7 x8 : (⟨S128x128, .f32⟩ : BufTy).Contents (Elt Ideal)) (x9 : (⟨S128, .f32⟩ : BufTy).Contents (Elt Ideal)) (x10 : (⟨S128x128, .f32⟩ : BufTy).Contents (Elt Ideal))

/-- The second layer is the first layer (with its clamp at zero) applied to the first layer's result. -/
theorem second_layer_eq :
    val_main_v65 (F := Ideal) x0 x1 x2 x3 x4 x5 x6 x7
      = val_main_v34 (F := Ideal) (val_main_v34 (F := Ideal) x0 x1 x2 x3 x4) x1 x5 x6 x7 := rfl

/-- The third layer is the first layer without its clamp at zero, applied to the second layer's result. -/
theorem third_layer_eq :
    val_main_v95 (F := Ideal) x0 x1 x2 x3 x4 x5 x6 x7 x8 x9 x10
      = val_main_v33 (F := Ideal) (val_main_v65 (F := Ideal) x0 x1 x2 x3 x4 x5 x6 x7) x1 x8 x9 x10 := rfl

end Stack

/-! ## The tail: an affine map into 40 classes and a softmax relative to the row's maximum -/

section Tail

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal))
  (x7 x8 : (⟨S128x128, .f32⟩ : BufTy).Contents (Elt Ideal)) (x9 : (⟨S128, .f32⟩ : BufTy).Contents (Elt Ideal)) (x10 : (⟨S128x128, .f32⟩ : BufTy).Contents (Elt Ideal))
  (x11 : (⟨S128x40, .f32⟩ : BufTy).Contents (Elt Ideal)) (x12 : (⟨S40, .f32⟩ : BufTy).Contents (Elt Ideal))

/-- The final product reads row r of the last layer … -/
theorem left_idx_out (r : Fin 50000) (j : Fin 40) (k : Fin 128) : lidx_main_v96 (ix2 r j) k = ix2 r k :=
  funext fun a => Fin.ext (by match a with | ⟨0, _⟩ => rfl | ⟨1, _⟩ => rfl)

/-- … and column j of the class matrix. -/
theorem right_idx_out (r : Fin 50000) (j : Fin 40) (k : Fin 128) : ridx_main_v96 (ix2 r j) k = ix2 k j :=
  funext fun a => Fin.ext (by match a with | ⟨0, _⟩ => rfl | ⟨1, _⟩ => rfl)

/-- The class bias, broadcast down the rows, is read at the column. -/
theorem bias_idx_out (r : Fin 50000) (j : Fin 40) : idx_main_v97 (idx_main_v98 (ix2 r j)) = ix1 j :=
  funext fun a => Fin.ext (by match a with | ⟨0, _⟩ => rfl)

/-- The row's maximum, broadcast along the row, is read at r. -/
theorem max_idx (r : Fin 50000) (j : Fin 40) : idx_main_v103 (idx_main_v104 (ix2 r j)) = ix1 r :=
  funext fun a => Fin.ext (by match a with | ⟨0, _⟩ => rfl)

/-- The row's sum of exponentials runs over the entries of row r … -/
theorem sum_idx (r : Fin 50000) (k : Fin 40) : idx_main_v107 (ix1 r) k = ix2 r k :=
  funext fun a => Fin.ext (by match a with | ⟨0, _⟩ => rfl | ⟨1, _⟩ => rfl)

/-- … and, broadcast along the row, is read at r. -/
theorem total_idx (r : Fin 50000) (j : Fin 40) : idx_main_v108 (idx_main_v109 (ix2 r j)) = ix1 r :=
  funext fun a => Fin.ext (by match a with | ⟨0, _⟩ => rfl)

/-- Inserting the class coordinate k into the row index r gives the entry (r, k). -/
theorem lift_idx (h : S50000x40.Reduces [1] S50000) (r : Fin 50000) (k : Fin 40) : h.lift (ix1 r) k = ix2 r k :=
  funext fun a => Fin.ext (by match a with | ⟨0, _⟩ => rfl | ⟨1, _⟩ => rfl)

/-- The logits of row r. -/
theorem logits_apply (r : Fin 50000) (j : Fin 40) :
    val_main_v99 (F := Ideal) x0 x1 x2 x3 x4 x5 x6 x7 x8 x9 x10 x11 x12 (ix2 r j) = (logits (fun k => val_main_v95 (F := Ideal) x0 x1 x2 x3 x4 x5 x6 x7 x8 x9 x10 (ix2 r k)) (fun k j => x11 (ix2 k j)) (fun j => x12 (ix1 j))) j := by
  rw [val_main_v99_apply, val_main_v96_apply, val_main_v98_apply, val_main_v97_apply, bias_idx_out]
  simp only [left_idx_out, right_idx_out]
  rfl

/-- The maximum of row r's logits: the reference folds `max` from −∞ along the row, then takes the maximum with −∞ once more. -/
theorem rowmax_apply (r : Fin 50000) :
    val_main_v102 (F := Ideal) x0 x1 x2 x3 x4 x5 x6 x7 x8 x9 x10 x11 x12 (ix1 r) = rowMax (logits (fun k => val_main_v95 (F := Ideal) x0 x1 x2 x3 x4 x5 x6 x7 x8 x9 x10 (ix2 r k)) (fun k j => x11 (ix2 k j)) (fun j => x12 (ix1 j))) := by
  have h : S50000x40.Reduces [1] S50000 := by decide
  have hrow : Function.comp (val_main_v99 (F := Ideal) x0 x1 x2 x3 x4 x5 x6 x7 x8 x9 x10 x11 x12) (h.lift (ix1 r)) = (logits (fun k => val_main_v95 (F := Ideal) x0 x1 x2 x3 x4 x5 x6 x7 x8 x9 x10 (ix2 r k)) (fun k j => x11 (ix2 k j)) (fun j => x12 (ix1 j))) :=
    funext fun k => (congrArg (val_main_v99 (F := Ideal) x0 x1 x2 x3 x4 x5 x6 x7 x8 x9 x10 x11 x12) (lift_idx h r k)).trans
      (logits_apply x0 x1 x2 x3 x4 x5 x6 x7 x8 x9 x10 x11 x12 r k)
  rw [val_main_v102_apply, val_main_v101_apply, val_main_cst_20_apply]
  show max wNegInf (val_main_v100 (F := Ideal) x0 x1 x2 x3 x4 x5 x6 x7 x8 x9 x10 x11 x12 (ix1 r)) = _
  rw [max_negInf_left]
  unfold val_main_v100
  rw [Host.reduce_eq_fold_single (FloatOps.maximumf (F := Ideal) (φ := .f32)) _ _ reducesTo_S50000x40_S50000_d1 h h_S_ (ix1 r)]
  exact congrArg (fun f : Fin 40 → EReal => (Finset.univ : Finset (Fin 40)).fold max wNegInf f) hrow

/-- The softmax of row r's logits. -/
theorem tail_apply (r : Fin 50000) (q : Fin 40) :
    val_main_v110 (F := Ideal) x0 x1 x2 x3 x4 x5 x6 x7 x8 x9 x10 x11 x12 (ix2 r q) = softmax (logits (fun k => val_main_v95 (F := Ideal) x0 x1 x2 x3 x4 x5 x6 x7 x8 x9 x10 (ix2 r k)) (fun k j => x11 (ix2 k j)) (fun j => x12 (ix1 j))) q := by
  have hexp : ∀ j : Fin 40, val_main_v106 (F := Ideal) x0 x1 x2 x3 x4 x5 x6 x7 x8 x9 x10 x11 x12 (ix2 r j)
      = Ideal.exp ((logits (fun k => val_main_v95 (F := Ideal) x0 x1 x2 x3 x4 x5 x6 x7 x8 x9 x10 (ix2 r k)) (fun k j => x11 (ix2 k j)) (fun j => x12 (ix1 j))) j - rowMax (logits (fun k => val_main_v95 (F := Ideal) x0 x1 x2 x3 x4 x5 x6 x7 x8 x9 x10 (ix2 r k)) (fun k j => x11 (ix2 k j)) (fun j => x12 (ix1 j)))) := by
    intro j
    rw [val_main_v106_apply, val_main_v105_apply, val_main_v104_apply, val_main_v103_apply, max_idx, rowmax_apply,
      logits_apply, Ideal.hostUnary_exp_def, Ideal.subf_def]
  have hterm : ∀ k : Fin 40, val_main_v106 (F := Ideal) x0 x1 x2 x3 x4 x5 x6 x7 x8 x9 x10 x11 x12 (idx_main_v107 (ix1 r) k)
      = Ideal.exp ((logits (fun k => val_main_v95 (F := Ideal) x0 x1 x2 x3 x4 x5 x6 x7 x8 x9 x10 (ix2 r k)) (fun k j => x11 (ix2 k j)) (fun j => x12 (ix1 j))) k - rowMax (logits (fun k => val_main_v95 (F := Ideal) x0 x1 x2 x3 x4 x5 x6 x7 x8 x9 x10 (ix2 r k)) (fun k j => x11 (ix2 k j)) (fun j => x12 (ix1 j)))) := fun k => by
    rw [sum_idx, hexp]
  rw [val_main_v110_apply, val_main_v109_apply, val_main_v108_apply, total_idx, val_main_v107_apply,
    val_main_cst_21_apply, hexp, Finset.sum_congr rfl fun k _ => hterm k, Ideal.ofBits_def, Ideal.ofBits_zero_f32,
    zero_add, Ideal.hostDivf_def]
  rfl

end Tail

end Cert.RefRows

end
-- ==== Proof.Bridge.lean ====
/-
  The two programs compute one function.

  Row by row, the kernel program's layer takes the mean over in-neighbours as (neighbour sum) · (1 / max degree 1) and
  the reference takes it as (neighbour sum) / (max degree 1): equal on the extended reals because the clamped degree
  is never zero. The neighbour sum and the degree themselves are the same host operations in both programs —
  a gather at the sources followed by a scatter-add at the destinations, and ones scattered at the destinations —
  so they are one function of the feature array and the edge list, whatever the edge list holds; nothing about them
  is opened. With that, each of the kernel program's three output arrays is the reference's stage function of the same
  arguments.
-/
import proofs.«170828_j31396210934185_2_alg».proof.Proof.RefRows
import proofs.«170828_j31396210934185_2_alg».proof.Proof.KerEntry

set_option maxRecDepth 16384

noncomputable section

namespace Cert.Bridge

open Cert.ReferenceIdeal Cert.ReferenceIdeal.Gen Cert.ReferenceIdeal.ReadP Cert.SageSpec
open Idealize.ShloMosaic Idealize.ShloMosaic.ValueIdx

variable (x : (⟨S50000x128, .f32⟩ : BufTy).Contents (Elt Ideal)) (ei : (⟨S2x800000, .i32⟩ : BufTy).Contents (Elt Ideal))
  (Wl : (⟨S128x128, .f32⟩ : BufTy).Contents (Elt Ideal)) (b : (⟨S128, .f32⟩ : BufTy).Contents (Elt Ideal)) (Wr : (⟨S128x128, .f32⟩ : BufTy).Contents (Elt Ideal))

/-- The neighbour sum is the same host operations in both programs. -/
theorem nbr_eq : Cert.KerEntry.nbrSumAt (F := Ideal) x (Cert.KerEntry.srcVec ei) (Cert.KerEntry.dstVec ei) = val_main_v13 (F := Ideal) x ei := rfl

/-- So is the in-degree. -/
theorem deg_eq : Cert.KerEntry.degree (F := Ideal) (Cert.KerEntry.dstVec ei) = val_main_v17 (F := Ideal) ei := rfl

/-- The mean row by the reciprocal is the mean row by the quotient. -/
theorem mean_row (r : Fin 50000) :
    (fun k : Fin 128 => Cert.KerEntry.nbrSumAt (F := Ideal) x (Cert.KerEntry.srcVec ei) (Cert.KerEntry.dstVec ei) (ix2 r k)
        * Cert.KerEntry.recipCol (F := Ideal) (Cert.KerEntry.dstVec ei) (ix2 r (0 : Fin 1)))
      = fun k : Fin 128 => Ideal.div (val_main_v13 (F := Ideal) x ei (ix2 r k)) (max (val_main_v17 (F := Ideal) ei (ix1 r)) w1) := by
  funext k
  rw [Cert.KerEntry.recipCol_apply, deg_eq, nbr_eq]
  exact mul_recip _ _ (clamp_ne_zero _)

/-- The bias row read along its columns is the bias vector. -/
theorem bias_row : (fun j : Fin 128 => Cert.KerEntry.biasRow (F := Ideal) b (ix2 0 j)) = fun j : Fin 128 => b (ix1 j) :=
  funext fun j => Cert.KerEntry.biasRow_apply b j

/-- The kernel program's layer row with its clamp at zero is the reference's layer at that entry. -/
theorem layer_pos_at (r : Fin 50000) (q : Fin 128) :
    unitPos (lin (fun k => Cert.KerEntry.nbrSumAt (F := Ideal) x (Cert.KerEntry.srcVec ei) (Cert.KerEntry.dstVec ei) (ix2 r k)
          * Cert.KerEntry.recipCol (F := Ideal) (Cert.KerEntry.dstVec ei) (ix2 r (0 : Fin 1)))
        (fun k => x (ix2 r k)) (fun k j => Wl (ix2 k j)) (fun k j => Wr (ix2 k j)) (fun j => Cert.KerEntry.biasRow (F := Ideal) b (ix2 0 j))) q
      = val_main_v34 (F := Ideal) x ei Wl b Wr (ix2 r q) := by
  rw [mean_row, bias_row, Cert.RefRows.layer_pos_apply]

/-- The same without the clamp at zero. -/
theorem layer_at (r : Fin 50000) (q : Fin 128) :
    unit (lin (fun k => Cert.KerEntry.nbrSumAt (F := Ideal) x (Cert.KerEntry.srcVec ei) (Cert.KerEntry.dstVec ei) (ix2 r k)
          * Cert.KerEntry.recipCol (F := Ideal) (Cert.KerEntry.dstVec ei) (ix2 r (0 : Fin 1)))
        (fun k => x (ix2 r k)) (fun k j => Wl (ix2 k j)) (fun k j => Wr (ix2 k j)) (fun j => Cert.KerEntry.biasRow (F := Ideal) b (ix2 0 j))) q
      = val_main_v33 (F := Ideal) x ei Wl b Wr (ix2 r q) := by
  rw [mean_row, bias_row, Cert.RefRows.layer_apply]

/-- The classifier's bias row read along its columns is the bias vector. -/
theorem bias_row40 (bfc : (⟨S40, .f32⟩ : BufTy).Contents (Elt Ideal)) :
    (fun j : Fin 40 => Cert.KerEntry.biasRow40 (F := Ideal) bfc (ix2 0 j)) = fun j : Fin 40 => bfc (ix1 j) :=
  funext fun j => Cert.KerEntry.biasRow40_apply bfc j

end Cert.Bridge

end
-- ==== Proof.Main.lean ====
/-
  The idealized kernel program ends with the reference's result.

  `H1`, `H2` and the result array — the three regions' output arrays — are the reference's first layer of the launch
  features, its second layer, and its final softmax, as whole arrays; so every weakly fair execution of the kernel
  program ends with the result buffer at the reference's last stage function of the launch arguments, and the
  arguments unchanged.
-/
import proofs.«170828_j31396210934185_2_alg».proof.Proof.KerValue
import proofs.«170828_j31396210934185_2_alg».proof.Proof.KerRun
import proofs.«170828_j31396210934185_2_alg».proof.Proof.Bridge

set_option maxRecDepth 16384

noncomputable section

namespace Cert.Main

open Cert.KernelIdeal Cert.KernelIdeal.Gen Cert.KernelIdeal.GenP
open Idealize.ShloMosaic Idealize.ShloMosaic.TcCoe Idealize.SL.Sem
open Idealize.ShloMosaic.ValueIdx Cert.SageSpec Cert.KerEntry

variable (m : (ℓ : Loc nD τ sig) → Buf (Elt Ideal) ℓ) (ρ : Dev nD → PrngReg) (c : Dev nD)

/-- Region 0's output array is the reference's first layer of the launch features. -/
theorem H1_eq : H1 (F := Ideal) m ρ c = Cert.ReferenceIdeal.ReadP.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨r, q, rfl⟩ : ∃ (r : Fin 50000) (q : Fin 128), i = ix2 r q := ⟨i 0, i 1, eq_ix2 i⟩
  exact (Cert.KerValue.H1_apply m ρ c r q).trans (Cert.Bridge.layer_pos_at _ _ _ _ _ r q)

/-- Region 1's output array is the reference's second layer. -/
theorem H2_eq : H2 (F := Ideal) m ρ c = Cert.ReferenceIdeal.ReadP.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨r, q, rfl⟩ : ∃ (r : Fin 50000) (q : Fin 128), i = ix2 r q := ⟨i 0, i 1, eq_ix2 i⟩
  rw [Cert.KerValue.H2_apply, H1_eq]
  exact (Cert.Bridge.layer_pos_at _ _ _ _ _ r q).trans
    (congrFun (Cert.RefRows.second_layer_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm _)

/-- The result array is the reference's result. -/
theorem result_eq : (W6 (F := Ideal) m ρ c (Proc.devRef .tc main_v49) : S50000x40.Idx → EReal)
    = Cert.ReferenceIdeal.ReadP.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨r, q, rfl⟩ : ∃ (r : Fin 50000) (q : Fin 40), i = ix2 r q := ⟨i 0, i 1, eq_ix2 i⟩
  rw [Cert.KerValue.result_apply, H2_eq, Cert.Bridge.bias_row40, Cert.RefRows.tail_apply]
  refine congrArg (fun z => softmax (logits z _ _) q) (funext fun k => ?_)
  exact (Cert.Bridge.layer_at _ _ _ _ _ r k).trans
    (congrFun (Cert.RefRows.third_layer_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm _)

/-- Every weakly fair execution of the idealized kernel program terminates without a fault, with the result buffer at the
    reference's last stage function of the launch arguments and the argument arrays unchanged. -/
theorem kernel_run : θ_run (defs (F := Ideal)) (onTc (τ := τ) (main (F := Ideal))) ⟨m, fun _ => 0, ρ⟩ (fun r => ∀ c : Dev nD,
      r.2.mem ((c.tc : Thread nD τ).loc main_v49) = Cert.ReferenceIdeal.ReadP.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun r h c =>
    ⟨(h c _ (mem_uc main_v49 (by decide))).trans (result_eq m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c)⟩) (Cert.KerRun.run_all m ρ)

end Cert.Main

end
-- ==== Proof.lean ====
/-
  A three-layer graph network — each layer averages the features of a node's in-neighbours, applies two linear maps
  and a bias, and normalizes the row to unit Euclidean length (clamped below by ε); the first two layers clamp at
  zero, the last feeds a linear classifier and a softmax — as a kernel program of three regions against a plain
  reference, on the extended reals.

  The two differ in three ways, none of which changes the value there: the kernel program works on blocks of 10000
  rows where the reference works on the whole array (a row's result depends on that row alone); it takes matrix
  products and row sums on the matrix and vector units where the reference uses the host's operations (all are
  plain finite sums); and it takes the neighbour mean as the neighbour sum times the reciprocal of the clamped
  in-degree where the reference divides by it (equal for every extended real because the clamped degree is at least
  one, hence not zero). No finiteness of the inputs is used. The ideal pass's ledger is empty, so the idealized
  kernel is the kernel's idealization with nothing to show.

  The frames of the two kernel programs are the generated frame certificates; the reference's frame is its run
  with the result dropped.
-/
import proofs.«170828_j31396210934185_2_alg».proof.Defs
import proofs.«170828_j31396210934185_2_alg».proof.Proof.Gen.Kernel
import proofs.«170828_j31396210934185_2_alg».proof.Proof.Gen.KernelIdeal
import proofs.«170828_j31396210934185_2_alg».proof.Proof.Gen.ReferenceIdeal
import proofs.«170828_j31396210934185_2_alg».proof.Proof.Gen.Pre_finite_inputs
import proofs.«170828_j31396210934185_2_alg».proof.Proof.Patched.KernelFrame
import proofs.«170828_j31396210934185_2_alg».proof.Proof.Patched.KernelIdealFrame
import proofs.«170828_j31396210934185_2_alg».proof.Proof.RefRun
import proofs.«170828_j31396210934185_2_alg».proof.Proof.Main
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.RefRun.run (F := Ideal) m ρ)

/-- From memories agreeing on the thirteen arguments both programs end at the reference's last stage function of those
    arguments. -/
theorem algebraic : Cert.algebraic_KernelIdeal_ReferenceIdeal := by
  intro m ρ m' ρ' _ hagree
  refine ⟨_, Cert.Main.kernel_run m ρ, ?_⟩
  refine (θ_run Cert.ReferenceIdeal.defs _ _).mono (fun _ h c => ⟨(h c).1.trans ?_, (h c).2⟩)
    (Cert.RefRun.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
